-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_12544" .f32 0x38A72F05#32 ((1 / 12544 : ℝ) : EReal)
  ∧ IdealRules.named_const.Statement Cert.KernelIdeal.κ "inv_12544" .f32 0x38A72F05#32 ((1 / 12544 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100x134 : Shape := ⟨3, ![4, 100, 134]⟩
abbrev S4x100x256x256 : Shape := ⟨4, ![4, 100, 256, 256]⟩
abbrev S80 : Shape := ⟨1, ![80]⟩
abbrev S80x256x256 : Shape := ⟨3, ![80, 256, 256]⟩
abbrev S12544 : Shape := ⟨1, ![12544]⟩
abbrev S_ : Shape := ⟨0, ![]⟩

class Facts : Prop where
  bcast_S_S4x100x134 : S_.BroadcastsInDim S4x100x134 (![] : Fin 0 → Fin S4x100x134.rank)
  reducesTo_S4x100x134_S_d0_1_2 : S4x100x134.ReducesTo [0, 1, 2] S_
  h_S_ : 0 < S_.numel
  bcast_S_S4x100x256x256 : S_.BroadcastsInDim S4x100x256x256 (![] : Fin 0 → Fin S4x100x256x256.rank)
  reducesTo_S4x100x256x256_S_d0_1_2_3 : S4x100x256x256.ReducesTo [0, 1, 2, 3] S_
  bcast_S_S80x256x256 : S_.BroadcastsInDim S80x256x256 (![] : Fin 0 → Fin S80x256x256.rank)
  reducesTo_S80x256x256_S_d0_1_2 : S80x256x256.ReducesTo [0, 1, 2] S_

variable [Facts]

def fn {F : FTy → Type} [FloatOps F] (main_arg0 : FVec F S4x100x134 .f32) (main_arg1 : FVec F S4x100x256x256 .f32) (main_arg2 : IVec S80 32) (main_arg3 : FVec F S80x256x256 .f32) (main_arg4 : IVec S12544 32) : IVec S_ 1 :=
  let main_v0 : FVec F S4x100x134 .f32 := Host.absf main_arg0
  let main_cst : FVec F S_ .f32 := constant S_ .f32 0x7F800000#32
  let main_v1 : FVec F S4x100x134 .f32 := broadcastInDim S4x100x134 ![] bcast_S_S4x100x134 main_cst
  let main_v2 : IVec S4x100x134 1 := cmpf .olt main_v0 main_v1
  let main_c : IVec S_ 1 := constantI S_ 1 1#1
  let main_v3 : IVec S_ 1 := (fun x v => Host.reduce IntOp.andi x v reducesTo_S4x100x134_S_d0_1_2 h_S_) main_v2 main_c
  let main_v4 : FVec F S4x100x256x256 .f32 := Host.absf main_arg1
  let main_cst_0 : FVec F S_ .f32 := constant S_ .f32 0x7F800000#32
  let main_v5 : FVec F S4x100x256x256 .f32 := broadcastInDim S4x100x256x256 ![] bcast_S_S4x100x256x256 main_cst_0
  let main_v6 : IVec S4x100x256x256 1 := cmpf .olt main_v4 main_v5
  let main_c_1 : IVec S_ 1 := constantI S_ 1 1#1
  let main_v7 : IVec S_ 1 := (fun x v => Host.reduce IntOp.andi x v reducesTo_S4x100x256x256_S_d0_1_2_3 h_S_) main_v6 main_c_1
  let main_v8 : IVec S_ 1 := andi main_v3 main_v7
  let main_v9 : FVec F S80x256x256 .f32 := Host.absf main_arg3
  let main_cst_2 : FVec F S_ .f32 := constant S_ .f32 0x7F800000#32
  let main_v10 : FVec F S80x256x256 .f32 := broadcastInDim S80x256x256 ![] bcast_S_S80x256x256 main_cst_2
  let main_v11 : IVec S80x256x256 1 := cmpf .olt main_v9 main_v10
  let main_c_3 : IVec S_ 1 := constantI S_ 1 1#1
  let main_v12 : IVec S_ 1 := (fun x v => Host.reduce IntOp.andi x v reducesTo_S80x256x256_S_d0_1_2 h_S_) main_v11 main_c_3
  let main_v13 : IVec S_ 1 := andi main_v8 main_v12
  main_v13
-- ==== Kernel.lean ====
abbrev S4x100x134 : Shape := ⟨3, ![4, 100, 134]⟩
abbrev S4x100x256x256 : Shape := ⟨4, ![4, 100, 256, 256]⟩
abbrev S80 : Shape := ⟨1, ![80]⟩
abbrev S80x256x256 : Shape := ⟨3, ![80, 256, 256]⟩
abbrev S12544 : Shape := ⟨1, ![12544]⟩
abbrev S400x134 : Shape := ⟨2, ![400, 134]⟩
abbrev S_ : Shape := ⟨0, ![]⟩
abbrev S400 : Shape := ⟨1, ![400]⟩
abbrev S400x1 : Shape := ⟨2, ![400, 1]⟩
abbrev S80x1 : Shape := ⟨2, ![80, 1]⟩
abbrev S400x80 : Shape := ⟨2, ![400, 80]⟩
abbrev S400x65536 : Shape := ⟨2, ![400, 65536]⟩
abbrev S12544x1 : Shape := ⟨2, ![12544, 1]⟩
abbrev S400x12544 : Shape := ⟨2, ![400, 12544]⟩
abbrev S80x65536 : Shape := ⟨2, ![80, 65536]⟩
abbrev S80x12544 : Shape := ⟨2, ![80, 12544]⟩
abbrev S80x1792 : Shape := ⟨2, ![80, 1792]⟩
abbrev S80x80 : Shape := ⟨2, ![80, 80]⟩
abbrev S1x80 : Shape := ⟨2, ![1, 80]⟩
abbrev S4x100x80 : Shape := ⟨3, ![4, 100, 80]⟩

abbrev nBuf : Space → Nat
  | .hbm => 64
  | .vmem => 11
  | .smem => 0
  | _ => 0

abbrev bufTy : (tb : Table) → Fin (tcTables nBuf tb) → BufTy
  | .hbm, ⟨0, _⟩ => ⟨S4x100x134, .f32⟩
  | .hbm, ⟨1, _⟩ => ⟨S4x100x256x256, .f32⟩
  | .hbm, ⟨2, _⟩ => ⟨S80, .i32⟩
  | .hbm, ⟨3, _⟩ => ⟨S80x256x256, .f32⟩
  | .hbm, ⟨4, _⟩ => ⟨S12544, .i32⟩
  | .hbm, ⟨5, _⟩ => ⟨S400x134, .f32⟩
  | .hbm, ⟨6, _⟩ => ⟨S_, .f32⟩
  | .hbm, ⟨7, _⟩ => ⟨S400, .f32⟩
  | .hbm, ⟨8, _⟩ => ⟨S_, .f32⟩
  | .hbm, ⟨9, _⟩ => ⟨S400, .f32⟩
  | .hbm, ⟨10, _⟩ => ⟨S400, .f32⟩
  | .hbm, ⟨11, _⟩ => ⟨S400x1, .f32⟩
  | .hbm, ⟨12, _⟩ => ⟨S400x134, .f32⟩
  | .hbm, ⟨13, _⟩ => ⟨S400x134, .f32⟩
  | .hbm, ⟨14, _⟩ => ⟨S400x134, .f32⟩
  | .hbm, ⟨15, _⟩ => ⟨S_, .f32⟩
  | .hbm, ⟨16, _⟩ => ⟨S400, .f32⟩
  | .hbm, ⟨17, _⟩ => ⟨S400x1, .f32⟩
  | .hbm, ⟨18, _⟩ => ⟨S400x134, .f32⟩
  | .hbm, ⟨19, _⟩ => ⟨S400x134, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S80, .i32⟩
  | .hbm, ⟨24, _⟩ => ⟨S80, .i32⟩
  | .hbm, ⟨25, _⟩ => ⟨S_, .i32⟩
  | .hbm, ⟨26, _⟩ => ⟨S80, .i32⟩
  | .hbm, ⟨27, _⟩ => ⟨S80, .i32⟩
  | .hbm, ⟨28, _⟩ => ⟨S_, .i32⟩
  | .hbm, ⟨29, _⟩ => ⟨S80, .i32⟩
  | .hbm, ⟨30, _⟩ => ⟨S80, .i1⟩
  | .hbm, ⟨31, _⟩ => ⟨S_, .i32⟩
  | .hbm, ⟨32, _⟩ => ⟨S80, .i32⟩
  | .hbm, ⟨33, _⟩ => ⟨S80, .i32⟩
  | .hbm, ⟨34, _⟩ => ⟨S80, .i32⟩
  | .hbm, ⟨35, _⟩ => ⟨S80x1, .i32⟩
  | .hbm, ⟨36, _⟩ => ⟨S400x80, .f32⟩
  | .hbm, ⟨37, _⟩ => ⟨S400x80, .f32⟩
  | .hbm, ⟨38, _⟩ => ⟨S400x65536, .f32⟩
  | .hbm, ⟨39, _⟩ => ⟨S_, .i32⟩
  | .hbm, ⟨40, _⟩ => ⟨S12544, .i32⟩
  | .hbm, ⟨41, _⟩ => ⟨S12544, .i1⟩
  | .hbm, ⟨42, _⟩ => ⟨S_, .i32⟩
  | .hbm, ⟨43, _⟩ => ⟨S12544, .i32⟩
  | .hbm, ⟨44, _⟩ => ⟨S12544, .i32⟩
  | .hbm, ⟨45, _⟩ => ⟨S12544, .i32⟩
  | .hbm, ⟨46, _⟩ => ⟨S12544x1, .i32⟩
  | .hbm, ⟨47, _⟩ => ⟨S400x12544, .f32⟩
  | .hbm, ⟨48, _⟩ => ⟨S80x65536, .f32⟩
  | .hbm, ⟨49, _⟩ => ⟨S_, .i32⟩
  | .hbm, ⟨50, _⟩ => ⟨S12544, .i32⟩
  | .hbm, ⟨51, _⟩ => ⟨S12544, .i1⟩
  | .hbm, ⟨52, _⟩ => ⟨S_, .i32⟩
  | .hbm, ⟨53, _⟩ => ⟨S12544, .i32⟩
  | .hbm, ⟨54, _⟩ => ⟨S12544, .i32⟩
  | .hbm, ⟨55, _⟩ => ⟨S12544, .i32⟩
  | .hbm, ⟨56, _⟩ => ⟨S12544x1, .i32⟩
  | .hbm, ⟨57, _⟩ => ⟨S80x12544, .f32⟩
  | .hbm, ⟨58, _⟩ => ⟨S400x80, .f32⟩
  | .hbm, ⟨59, _⟩ => ⟨S_, .f32⟩
  | .hbm, ⟨60, _⟩ => ⟨S400x80, .f32⟩
  | .hbm, ⟨61, _⟩ => ⟨S400x80, .f32⟩
  | .hbm, ⟨62, _⟩ => ⟨S400x80, .f32⟩
  | .hbm, ⟨63, _⟩ => ⟨S4x100x80, .f32⟩
  | .local _ .vmem, ⟨0, _⟩ => ⟨S80x1792, .f32⟩
  | .local _ .vmem, ⟨1, _⟩ => ⟨S80x1792, .f32⟩
  | .local _ .vmem, ⟨2, _⟩ => ⟨S80x1792, .f32⟩
  | .local _ .vmem, ⟨3, _⟩ => ⟨S80x1792, .f32⟩
  | .local _ .vmem, ⟨4, _⟩ => ⟨S80x80, .f32⟩
  | .local _ .vmem, ⟨5, _⟩ => ⟨S80x80, .f32⟩
  | .local _ .vmem, ⟨6, _⟩ => ⟨S80x1, .f32⟩
  | .local _ .vmem, ⟨7, _⟩ => ⟨S80x1, .f32⟩
  | .local _ .vmem, ⟨8, _⟩ => ⟨S80x1, .f32⟩
  | .local _ .vmem, ⟨9, _⟩ => ⟨S80x80, .f32⟩
  | .local _ .vmem, ⟨10, _⟩ => ⟨S80x80, .f32⟩
  | _, _ => ⟨S4x100x134, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 7], ![false, false]⟩

def k0_cond2 (i : grid0.Coords) : BitVec 1 :=
  let arg1 : BitVec 32 := BitVec.ofNat 32 (i 1).val
  let c6_i32 : BitVec 32 := 6#32
  let v58 : BitVec 1 := Scalar.cmpi .eq arg1 c6_i32
  let v59 : BitVec 32 := Scalar.extui v58
  let c0_i32_30 : BitVec 32 := 0#32
  let v60 : BitVec 1 := Scalar.cmpi .ne v59 c0_i32_30
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S80x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S80x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S80x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x100x134_S400x134 : S4x100x134.ShapeCasts S400x134
  reducesTo_S400x134_S400_d1 : S400x134.ReducesTo [1] S400
  h_S_ : 0 < S_.numel
  bcast_S_S400 : S_.BroadcastsInDim S400 (![] : Fin 0 → Fin S400.rank)
  bcast_S400_S400x1_0 : S400.BroadcastsInDim S400x1 (![0] : Fin 1 → Fin S400x1.rank)
  bcast_S400x1_S400x134_0_1 : S400x1.BroadcastsInDim S400x134 (![0, 1] : Fin 2 → Fin S400x134.rank)
  bcast_S_S80 : S_.BroadcastsInDim S80 (![] : Fin 0 → Fin S80.rank)
  bcast_S80_S80x1_0 : S80.BroadcastsInDim S80x1 (![0] : Fin 1 → Fin S80x1.rank)
  shapeCasts_S4x100x256x256_S400x65536 : S4x100x256x256.ShapeCasts S400x65536
  bcast_S_S12544 : S_.BroadcastsInDim S12544 (![] : Fin 0 → Fin S12544.rank)
  bcast_S12544_S12544x1_0 : S12544.BroadcastsInDim S12544x1 (![0] : Fin 1 → Fin S12544x1.rank)
  shapeCasts_S80x256x256_S80x65536 : S80x256x256.ShapeCasts S80x65536
  inb_S80x1_S80x1_0_0 : ∀ a, (![0, 0] : Fin 2 → Nat) a + S80x1.size a ≤ S80x1.size a
  h_S80x1 : 0 < S80x1.numel
  shapeCasts_S80x1_S80x1 : S80x1.ShapeCasts S80x1
  inb_S80x80_S80x80_0_0 : ∀ a, (![0, 0] : Fin 2 → Nat) a + S80x80.size a ≤ S80x80.size a
  h_S80x80 : 0 < S80x80.numel
  shapeCasts_S80x80_S80x80 : S80x80.ShapeCasts S80x80
  inb_S80x1792_S80x1792_0_0 : ∀ a, (![0, 0] : Fin 2 → Nat) a + S80x1792.size a ≤ S80x1792.size a
  h_S80x1792 : 0 < S80x1792.numel
  shapeCasts_S80x1792_S80x1792 : S80x1792.ShapeCasts S80x1792
  reduces_S80x1792_S80 : S80x1792.Reduces [1] S80
  shapeCasts_S80_S80x1 : S80.ShapeCasts S80x1
  bitsLt_bf16_f32 : FTy.bits .bf16 < FTy.bits .f32
  broadcasts_S80x1_S80x80 : S80x1.Broadcasts S80x80
  transposes_S80x1_p1_0_S1x80 : S80x1.Transposes [1, 0] S1x80
  broadcasts_S1x80_S80x80 : S1x80.Broadcasts S80x80
  bcast_S_S400x80 : S_.BroadcastsInDim S400x80 (![] : Fin 0 → Fin S400x80.rank)
  shapeCasts_S400x80_S4x100x80 : S400x80.ShapeCasts S4x100x80
  gather_S400x134_S80x1_S400x80_0_1_n_n_1_1_4001_wf : GatherDims.WF S400x134 S80x1 S400x80 [0] [1] [] [1] [] 1 ![400, 1]
  gather_S400x65536_S12544x1_S400x12544_0_1_n_n_1_1_4001_wf : GatherDims.WF S400x65536 S12544x1 S400x12544 [0] [1] [] [1] [] 1 ![400, 1]
  gather_S80x65536_S12544x1_S80x12544_0_1_n_n_1_1_801_wf : GatherDims.WF S80x65536 S12544x1 S80x12544 [0] [1] [] [1] [] 1 ![80, 1]
  dot_S80x1792_S80x1792_S80x80_1_1_0_0_n_n_wf : DotDims.WF S80x1792 S80x1792 S80x80 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x1792.size a ≤ S400x12544.size a
  hwx0_0 : ∀ i : grid0.Coords, EltTy.bits .f32 = 32 ∨ (Rect.block (s := S400x12544) S80x1792.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x1792.size a ≤ S80x12544.size a
  hwx0_1 : ∀ i : grid0.Coords, EltTy.bits .f32 = 32 ∨ (Rect.block (s := S80x12544) S80x1792.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S80x80.size a ≤ S400x80.size a
  hwx0_2 : ∀ i : grid0.Coords, EltTy.bits .f32 = 32 ∨ (Rect.block (s := S400x80) S80x80.size (cc0_transform_2 i) (hinb0_2 i)).WholeWords (EltTy.packing .f32)

variable [Facts₀]

def gather_S400x134_S80x1_S400x80_0_1_n_n_1_1_4001 : GatherDims S400x134 S80x1 S400x80 where
  offsetDims := [0]
  collapsedSliceDims := [1]
  operandBatchingDims := []
  startIndicesBatchingDims := []
  startIndexMap := [1]
  indexVectorDim := 1
  sliceSizes := ![400, 1]
  wf := gather_S400x134_S80x1_S400x80_0_1_n_n_1_1_4001_wf
def gather_S400x65536_S12544x1_S400x12544_0_1_n_n_1_1_4001 : GatherDims S400x65536 S12544x1 S400x12544 where
  offsetDims := [0]
  collapsedSliceDims := [1]
  operandBatchingDims := []
  startIndicesBatchingDims := []
  startIndexMap := [1]
  indexVectorDim := 1
  sliceSizes := ![400, 1]
  wf := gather_S400x65536_S12544x1_S400x12544_0_1_n_n_1_1_4001_wf
def gather_S80x65536_S12544x1_S80x12544_0_1_n_n_1_1_801 : GatherDims S80x65536 S12544x1 S80x12544 where
  offsetDims := [0]
  collapsedSliceDims := [1]
  operandBatchingDims := []
  startIndicesBatchingDims := []
  startIndexMap := [1]
  indexVectorDim := 1
  sliceSizes := ![80, 1]
  wf := gather_S80x65536_S12544x1_S80x12544_0_1_n_n_1_1_801_wf
def dot_S80x1792_S80x1792_S80x80_1_1_0_0_n_n : DotDims S80x1792 S80x1792 S80x80 where
  lhsContracting := [1]
  rhsContracting := [1]
  lhsNonContracting := [0]
  rhsNonContracting := [0]
  lhsBatch := []
  rhsBatch := []
  wf := dot_S80x1792_S80x1792_S80x80_1_1_0_0_n_n_wf

abbrev win0_0 : Pipeline.Window sig grid0 :=
  Pipeline.Window.ofSpec (Memref.whole main_v28) S80x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S80x1792.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S80x80.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x100x134 : Shape := ⟨3, ![4, 100, 134]⟩
abbrev S4x100x256x256 : Shape := ⟨4, ![4, 100, 256, 256]⟩
abbrev S80 : Shape := ⟨1, ![80]⟩
abbrev S80x256x256 : Shape := ⟨3, ![80, 256, 256]⟩
abbrev S12544 : Shape := ⟨1, ![12544]⟩
abbrev S400x134 : Shape := ⟨2, ![400, 134]⟩
abbrev S_ : Shape := ⟨0, ![]⟩
abbrev S400 : Shape := ⟨1, ![400]⟩
abbrev S400x1 : Shape := ⟨2, ![400, 1]⟩
abbrev S80x1 : Shape := ⟨2, ![80, 1]⟩
abbrev S400x80 : Shape := ⟨2, ![400, 80]⟩
abbrev S400x65536 : Shape := ⟨2, ![400, 65536]⟩
abbrev S12544x1 : Shape := ⟨2, ![12544, 1]⟩
abbrev S400x12544 : Shape := ⟨2, ![400, 12544]⟩
abbrev S80x65536 : Shape := ⟨2, ![80, 65536]⟩
abbrev S80x12544 : Shape := ⟨2, ![80, 12544]⟩
abbrev S1x80 : Shape := ⟨2, ![1, 80]⟩
abbrev S4x100x80 : Shape := ⟨3, ![4, 100, 80]⟩

abbrev nBuf : Space → Nat
  | .hbm => 127
  | .vmem => 0
  | .smem => 0
  | _ => 0

abbrev bufTy : (tb : Table) → Fin (tcTables nBuf tb) → BufTy
  | .hbm, ⟨0, _⟩ => ⟨S4x100x134, .f32⟩
  | .hbm, ⟨1, _⟩ => ⟨S4x100x256x256, .f32⟩
  | .hbm, ⟨2, _⟩ => ⟨S80, .i32⟩
  | .hbm, ⟨3, _⟩ => ⟨S80x256x256, .f32⟩
  | .hbm, ⟨4, _⟩ => ⟨S12544, .i32⟩
  | .hbm, ⟨5, _⟩ => ⟨S400x134, .f32⟩
  | .hbm, ⟨6, _⟩ => ⟨S_, .f32⟩
  | .hbm, ⟨7, _⟩ => ⟨S400, .f32⟩
  | .hbm, ⟨8, _⟩ => ⟨S_, .f32⟩
  | .hbm, ⟨9, _⟩ => ⟨S400, .f32⟩
  | .hbm, ⟨10, _⟩ => ⟨S400, .f32⟩
  | .hbm, ⟨11, _⟩ => ⟨S400x1, .f32⟩
  | .hbm, ⟨12, _⟩ => ⟨S400x134, .f32⟩
  | .hbm, ⟨13, _⟩ => ⟨S400x134, .f32⟩
  | .hbm, ⟨14, _⟩ => ⟨S400x134, .f32⟩
  | .hbm, ⟨15, _⟩ => ⟨S_, .f32⟩
  | .hbm, ⟨16, _⟩ => ⟨S400, .f32⟩
  | .hbm, ⟨17, _⟩ => ⟨S400x1, .f32⟩
  | .hbm, ⟨18, _⟩ => ⟨S400x134, .f32⟩
  | .hbm, ⟨19, _⟩ => ⟨S400x134, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S80, .i32⟩
  | .hbm, ⟨24, _⟩ => ⟨S80, .i32⟩
  | .hbm, ⟨25, _⟩ => ⟨S_, .i32⟩
  | .hbm, ⟨26, _⟩ => ⟨S80, .i32⟩
  | .hbm, ⟨27, _⟩ => ⟨S80, .i32⟩
  | .hbm, ⟨28, _⟩ => ⟨S_, .i32⟩
  | .hbm, ⟨29, _⟩ => ⟨S80, .i32⟩
  | .hbm, ⟨30, _⟩ => ⟨S80, .i1⟩
  | .hbm, ⟨31, _⟩ => ⟨S_, .i32⟩
  | .hbm, ⟨32, _⟩ => ⟨S80, .i32⟩
  | .hbm, ⟨33, _⟩ => ⟨S80, .i32⟩
  | .hbm, ⟨34, _⟩ => ⟨S80, .i32⟩
  | .hbm, ⟨35, _⟩ => ⟨S80x1, .i32⟩
  | .hbm, ⟨36, _⟩ => ⟨S400x80, .f32⟩
  | .hbm, ⟨37, _⟩ => ⟨S400x80, .f32⟩
  | .hbm, ⟨38, _⟩ => ⟨S400x65536, .f32⟩
  | .hbm, ⟨39, _⟩ => ⟨S_, .i32⟩
  | .hbm, ⟨40, _⟩ => ⟨S12544, .i32⟩
  | .hbm, ⟨41, _⟩ => ⟨S12544, .i1⟩
  | .hbm, ⟨42, _⟩ => ⟨S_, .i32⟩
  | .hbm, ⟨43, _⟩ => ⟨S12544, .i32⟩
  | .hbm, ⟨44, _⟩ => ⟨S12544, .i32⟩
  | .hbm, ⟨45, _⟩ => ⟨S12544, .i32⟩
  | .hbm, ⟨46, _⟩ => ⟨S12544x1, .i32⟩
  | .hbm, ⟨47, _⟩ => ⟨S400x12544, .f32⟩
  | .hbm, ⟨48, _⟩ => ⟨S80x65536, .f32⟩
  | .hbm, ⟨49, _⟩ => ⟨S_, .i32⟩
  | .hbm, ⟨50, _⟩ => ⟨S12544, .i32⟩
  | .hbm, ⟨51, _⟩ => ⟨S12544, .i1⟩
  | .hbm, ⟨52, _⟩ => ⟨S_, .i32⟩
  | .hbm, ⟨53, _⟩ => ⟨S12544, .i32⟩
  | .hbm, ⟨54, _⟩ => ⟨S12544, .i32⟩
  | .hbm, ⟨55, _⟩ => ⟨S12544, .i32⟩
  | .hbm, ⟨56, _⟩ => ⟨S12544x1, .i32⟩
  | .hbm, ⟨57, _⟩ => ⟨S80x12544, .f32⟩
  | .hbm, ⟨58, _⟩ => ⟨S_, .f32⟩
  | .hbm, ⟨59, _⟩ => ⟨S400x12544, .f32⟩
  | .hbm, ⟨60, _⟩ => ⟨S400x12544, .f32⟩
  | .hbm, ⟨61, _⟩ => ⟨S400x12544, .f32⟩
  | .hbm, ⟨62, _⟩ => ⟨S400x12544, .f32⟩
  | .hbm, ⟨63, _⟩ => ⟨S400x12544, .i1⟩
  | .hbm, ⟨64, _⟩ => ⟨S400x12544, .f32⟩
  | .hbm, ⟨65, _⟩ => ⟨S400x12544, .f32⟩
  | .hbm, ⟨66, _⟩ => ⟨S400x12544, .f32⟩
  | .hbm, ⟨67, _⟩ => ⟨S400x12544, .f32⟩
  | .hbm, ⟨68, _⟩ => ⟨S400x12544, .f32⟩
  | .hbm, ⟨69, _⟩ => ⟨S400x12544, .f32⟩
  | .hbm, ⟨70, _⟩ => ⟨S400x12544, .f32⟩
  | .hbm, ⟨71, _⟩ => ⟨S400x12544, .f32⟩
  | .hbm, ⟨72, _⟩ => ⟨S_, .f32⟩
  | .hbm, ⟨73, _⟩ => ⟨S400, .f32⟩
  | .hbm, ⟨74, _⟩ => ⟨S_, .f32⟩
  | .hbm, ⟨75, _⟩ => ⟨S400, .f32⟩
  | .hbm, ⟨76, _⟩ => ⟨S400, .f32⟩
  | .hbm, ⟨77, _⟩ => ⟨S400x80, .f32⟩
  | .hbm, ⟨78, _⟩ => ⟨S400x1, .f32⟩
  | .hbm, ⟨79, _⟩ => ⟨S_, .f32⟩
  | .hbm, ⟨80, _⟩ => ⟨S400x80, .f32⟩
  | .hbm, ⟨81, _⟩ => ⟨S400x80, .f32⟩
  | .hbm, ⟨82, _⟩ => ⟨S400x80, .f32⟩
  | .hbm, ⟨83, _⟩ => ⟨S400x80, .f32⟩
  | .hbm, ⟨84, _⟩ => ⟨S400x12544, .f32⟩
  | .hbm, ⟨85, _⟩ => ⟨S400x12544, .f32⟩
  | .hbm, ⟨86, _⟩ => ⟨S_, .f32⟩
  | .hbm, ⟨87, _⟩ => ⟨S400x12544, .f32⟩
  | .hbm, ⟨88, _⟩ => ⟨S400x12544, .f32⟩
  | .hbm, ⟨89, _⟩ => ⟨S_, .f32⟩
  | .hbm, ⟨90, _⟩ => ⟨S400x12544, .f32⟩
  | .hbm, ⟨91, _⟩ => ⟨S400x12544, .f32⟩
  | .hbm, ⟨92, _⟩ => ⟨S400x80, .f32⟩
  | .hbm, ⟨93, _⟩ => ⟨S_, .f32⟩
  | .hbm, ⟨94, _⟩ => ⟨S400x80, .f32⟩
  | .hbm, ⟨95, _⟩ => ⟨S400x80, .f32⟩
  | .hbm, ⟨96, _⟩ => ⟨S_, .f32⟩
  | .hbm, ⟨97, _⟩ => ⟨S400, .f32⟩
  | .hbm, ⟨98, _⟩ => ⟨S400x1, .f32⟩
  | .hbm, ⟨99, _⟩ => ⟨S_, .f32⟩
  | .hbm, ⟨100, _⟩ => ⟨S80, .f32⟩
  | .hbm, ⟨101, _⟩ => ⟨S1x80, .f32⟩
  | .hbm, ⟨102, _⟩ => ⟨S400x80, .f32⟩
  | .hbm, ⟨103, _⟩ => ⟨S400x80, .f32⟩
  | .hbm, ⟨104, _⟩ => ⟨S400x80, .f32⟩
  | .hbm, ⟨105, _⟩ => ⟨S_, .f32⟩
  | .hbm, ⟨106, _⟩ => ⟨S400x80, .f32⟩
  | .hbm, ⟨107, _⟩ => ⟨S400x80, .f32⟩
  | .hbm, ⟨108, _⟩ => ⟨S_, .f32⟩
  | .hbm, ⟨109, _⟩ => ⟨S400x80, .f32⟩
  | .hbm, ⟨110, _⟩ => ⟨S400x80, .f32⟩
  | .hbm, ⟨111, _⟩ => ⟨S400x80, .f32⟩
  | .hbm, ⟨112, _⟩ => ⟨S_, .f32⟩
  | .hbm, ⟨113, _⟩ => ⟨S400x80, .f32⟩
  | .hbm, ⟨114, _⟩ => ⟨S400x80, .f32⟩
  | .hbm, ⟨115, _⟩ => ⟨S_, .f32⟩
  | .hbm, ⟨116, _⟩ => ⟨S400x80, .f32⟩
  | .hbm, ⟨117, _⟩ => ⟨S400x80, .f32⟩
  | .hbm, ⟨118, _⟩ => ⟨S_, .f32⟩
  | .hbm, ⟨119, _⟩ => ⟨S400x80, .f32⟩
  | .hbm, ⟨120, _⟩ => ⟨S400x80, .f32⟩
  | .hbm, ⟨121, _⟩ => ⟨S400x80, .f32⟩
  | .hbm, ⟨122, _⟩ => ⟨S_, .f32⟩
  | .hbm, ⟨123, _⟩ => ⟨S400x80, .f32⟩
  | .hbm, ⟨124, _⟩ => ⟨S400x80, .f32⟩
  | .hbm, ⟨125, _⟩ => ⟨S400x80, .f32⟩
  | .hbm, ⟨126, _⟩ => ⟨S4x100x80, .f32⟩
  | _, _ => ⟨S4x100x134, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_c_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_c_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_v37 : Ref sig .tc := ⟨.hbm, 71, rfl⟩
abbrev main_cst_9 : Ref sig .tc := ⟨.hbm, 72, rfl⟩
abbrev main_v38 : Ref sig .tc := ⟨.hbm, 73, rfl⟩
abbrev main_cst_10 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_11 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_12 : Ref sig .tc := ⟨.hbm, 86, rfl⟩
abbrev main_v49 : Ref sig .tc := ⟨.hbm, 87, rfl⟩
abbrev main_v50 : Ref sig .tc := ⟨.hbm, 88, rfl⟩
abbrev main_cst_13 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_14 : Ref sig .tc := ⟨.hbm, 93, rfl⟩
abbrev main_v54 : Ref sig .tc := ⟨.hbm, 94, rfl⟩
abbrev main_v55 : Ref sig .tc := ⟨.hbm, 95, rfl⟩
abbrev main_cst_15 : Ref sig .tc := ⟨.hbm, 96, rfl⟩
abbrev main_v56 : Ref sig .tc := ⟨.hbm, 97, rfl⟩
abbrev main_v57 : Ref sig .tc := ⟨.hbm, 98, rfl⟩
abbrev main_cst_16 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_17 : Ref sig .tc := ⟨.hbm, 105, rfl⟩
abbrev main_v63 : Ref sig .tc := ⟨.hbm, 106, rfl⟩
abbrev main_v64 : Ref sig .tc := ⟨.hbm, 107, rfl⟩
abbrev main_cst_18 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_19 : Ref sig .tc := ⟨.hbm, 112, rfl⟩
abbrev main_v68 : Ref sig .tc := ⟨.hbm, 113, rfl⟩
abbrev main_v69 : Ref sig .tc := ⟨.hbm, 114, rfl⟩
abbrev main_cst_20 : Ref sig .tc := ⟨.hbm, 115, rfl⟩
abbrev main_v70 : Ref sig .tc := ⟨.hbm, 116, rfl⟩
abbrev main_v71 : Ref sig .tc := ⟨.hbm, 117, rfl⟩
abbrev main_cst_21 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_cst_22 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩

abbrev nD : Nat := 1
abbrev τ : Topo := Topo.v7x

variable {F : FTy → Type} [FloatOps F]

class Facts₀ : Prop where
  shapeCasts_S4x100x134_S400x134 : S4x100x134.ShapeCasts S400x134
  reducesTo_S400x134_S400_d1 : S400x134.ReducesTo [1] S400
  h_S_ : 0 < S_.numel
  bcast_S_S400 : S_.BroadcastsInDim S400 (![] : Fin 0 → Fin S400.rank)
  bcast_S400_S400x1_0 : S400.BroadcastsInDim S400x1 (![0] : Fin 1 → Fin S400x1.rank)
  bcast_S400x1_S400x134_0_1 : S400x1.BroadcastsInDim S400x134 (![0, 1] : Fin 2 → Fin S400x134.rank)
  bcast_S_S80 : S_.BroadcastsInDim S80 (![] : Fin 0 → Fin S80.rank)
  bcast_S80_S80x1_0 : S80.BroadcastsInDim S80x1 (![0] : Fin 1 → Fin S80x1.rank)
  shapeCasts_S4x100x256x256_S400x65536 : S4x100x256x256.ShapeCasts S400x65536
  bcast_S_S12544 : S_.BroadcastsInDim S12544 (![] : Fin 0 → Fin S12544.rank)
  bcast_S12544_S12544x1_0 : S12544.BroadcastsInDim S12544x1 (![0] : Fin 1 → Fin S12544x1.rank)
  shapeCasts_S80x256x256_S80x65536 : S80x256x256.ShapeCasts S80x65536
  bcast_S_S400x12544 : S_.BroadcastsInDim S400x12544 (![] : Fin 0 → Fin S400x12544.rank)
  reducesTo_S400x12544_S400_d1 : S400x12544.ReducesTo [1] S400
  bcast_S_S400x80 : S_.BroadcastsInDim S400x80 (![] : Fin 0 → Fin S400x80.rank)
  bcast_S400x1_S400x80_0_1 : S400x1.BroadcastsInDim S400x80 (![0, 1] : Fin 2 → Fin S400x80.rank)
  reducesTo_S80x12544_S80_d1 : S80x12544.ReducesTo [1] S80
  bcast_S80_S1x80_1 : S80.BroadcastsInDim S1x80 (![1] : Fin 1 → Fin S1x80.rank)
  bcast_S1x80_S400x80_0_1 : S1x80.BroadcastsInDim S400x80 (![0, 1] : Fin 2 → Fin S400x80.rank)
  shapeCasts_S400x80_S4x100x80 : S400x80.ShapeCasts S4x100x80
  gather_S400x134_S80x1_S400x80_0_1_n_n_1_1_4001_wf : GatherDims.WF S400x134 S80x1 S400x80 [0] [1] [] [1] [] 1 ![400, 1]
  gather_S400x65536_S12544x1_S400x12544_0_1_n_n_1_1_4001_wf : GatherDims.WF S400x65536 S12544x1 S400x12544 [0] [1] [] [1] [] 1 ![400, 1]
  gather_S80x65536_S12544x1_S80x12544_0_1_n_n_1_1_801_wf : GatherDims.WF S80x65536 S12544x1 S80x12544 [0] [1] [] [1] [] 1 ![80, 1]
  dot_S400x12544_S80x12544_S400x80_1_1_0_0_n_n_wf : DotDims.WF S400x12544 S80x12544 S400x80 [1] [1] [0] [0] [] []

variable [Facts₀]

def gather_S400x134_S80x1_S400x80_0_1_n_n_1_1_4001 : GatherDims S400x134 S80x1 S400x80 where
  offsetDims := [0]
  collapsedSliceDims := [1]
  operandBatchingDims := []
  startIndicesBatchingDims := []
  startIndexMap := [1]
  indexVectorDim := 1
  sliceSizes := ![400, 1]
  wf := gather_S400x134_S80x1_S400x80_0_1_n_n_1_1_4001_wf
def gather_S400x65536_S12544x1_S400x12544_0_1_n_n_1_1_4001 : GatherDims S400x65536 S12544x1 S400x12544 where
  offsetDims := [0]
  collapsedSliceDims := [1]
  operandBatchingDims := []
  startIndicesBatchingDims := []
  startIndexMap := [1]
  indexVectorDim := 1
  sliceSizes := ![400, 1]
  wf := gather_S400x65536_S12544x1_S400x12544_0_1_n_n_1_1_4001_wf
def gather_S80x65536_S12544x1_S80x12544_0_1_n_n_1_1_801 : GatherDims S80x65536 S12544x1 S80x12544 where
  offsetDims := [0]
  collapsedSliceDims := [1]
  operandBatchingDims := []
  startIndicesBatchingDims := []
  startIndexMap := [1]
  indexVectorDim := 1
  sliceSizes := ![80, 1]
  wf := gather_S80x65536_S12544x1_S80x12544_0_1_n_n_1_1_801_wf
def dot_S400x12544_S80x12544_S400x80_1_1_0_0_n_n : DotDims S400x12544 S80x12544 S400x80 where
  lhsContracting := [1]
  rhsContracting := [1]
  lhsNonContracting := [0]
  rhsNonContracting := [0]
  lhsBatch := []
  rhsBatch := []
  wf := dot_S400x12544_S80x12544_S400x80_1_1_0_0_n_n_wf

class Facts : Prop extends Facts₀ where

variable [Facts]
-- ==== Proof.Pieces.lean ====
/-
  What one run of the kernel body leaves in its five accumulators and in the output block, read back as values.
  The body runs in three ways: at the first column tile of a row block it first stores zeros into the accumulators;
  at every tile it adds the tile's contribution to each accumulator; at the last tile it also stores the output
  block, computed from the accumulators as that same run has just left them. In each case every buffer is
  overwritten whole, so what it holds afterwards is the value of its last store: a pure function of the two input
  tiles and of the accumulators' contents before the run.
-/
import proofs.«113204_j56581899157958_1_alg».proof.Proof.Gen.KernelIdeal.Frame
import Idealize.ShloMosaic.Lib.Pipeline.Value
import Idealize.ShloMosaic.Lib.Tactic

noncomputable section

namespace Cert.Pieces

open Idealize.ShloMosaic Idealize.ShloMosaic.TcCoe Idealize.SL.Sem
open Cert.KernelIdeal Cert.KernelIdeal.Gen

variable {F : FTy → Type} [FloatOps F] [Named F]
variable (c : Dev nD) (i : grid0.Coords)
  (arg2 : Memref sig .tc .vmem S80x1792 .f32) (harg2 : arg2.IsWhole) (arg3 : Memref sig .tc .vmem S80x1792 .f32) (harg3 : arg3.IsWhole)
  (arg4 : Memref sig .tc .vmem S80x80 .f32) (harg4 : arg4.IsWhole)
  (arg5 : Memref sig .tc .vmem S80x1 .f32) (harg5 : arg5.IsWhole) (arg6 : Memref sig .tc .vmem S80x1 .f32) (harg6 : arg6.IsWhole)
  (arg7 : Memref sig .tc .vmem S80x1 .f32) (harg7 : arg7.IsWhole)
  (arg8 : Memref sig .tc .vmem S80x80 .f32) (harg8 : arg8.IsWhole) (arg9 : Memref sig .tc .vmem S80x80 .f32) (harg9 : arg9.IsWhole)
  (x0 x1 : Vec F S80x1792 .f32) (xs0 xs1 xs2 : Vec F S80x1 .f32) (xs3 xs4 : Vec F S80x80 .f32)

theorem hz : (![0, 0] : Fin 2 → Nat) = fun _ => 0 := funext fun a => by fin_cases a <;> rfl

/-- A buffer whose stores cover it holds the canonical reading of those stores; the values the run named on the
    way are opened. (`f`: what the buffer holds; `r`: the run that found the stores; `cov`: they cover it.) -/
local macro "read_back " f:ident r:ident cov:term : tactic =>
  `(tactic| (unfold $f; rw [View.read_writes_eq_canon _ _ _ $cov]; unfold $r; dsimp only; sl_unfold_words))

set_option hygiene false in
/-- A whole buffer loaded through zero offsets is its contents. -/
local macro "whole_loads" : tactic =>
  `(tactic| simp only [View.readAt_eq_ld, harg2.read_unread, harg3.read_unread, harg5.read_unread, harg6.read_unread,
      harg7.read_unread, harg8.read_unread, harg9.read_unread, View.ld_unit_zero (S := S80x1792) hz,
      View.ld_unit_zero (S := S80x1) hz, View.ld_unit_zero (S := S80x80) hz])

/-! ## The first point of a row block: the step over the zeros just stored

Each accumulator is stored twice, the zeros and then the accumulated value; the later store covers the buffer, and
the value it accumulates onto is the load of the zeros. -/

theorem first_0 (hc0 : cond0_0 i) (hc1 : ¬cond0_1 i) :
    sout0_A_0 c i arg2 harg2 arg3 harg3 arg4 harg4 arg5 harg5 arg6 harg6 arg7 harg7 arg8 harg8 arg9 harg9 hc0 hc1 x0 x1
      = k0_pay14 x0 (k0_pay6 (F := F)) := by
  read_back sout0_A_0 kernelRun0_A (scover0_A_0 c i arg2 harg2 arg3 harg3 arg4 harg4 arg5 harg5 arg6 harg6 arg7 harg7 arg8 harg8 arg9 harg9 hc0 hc1 x0 x1)
  rw [View.canon_cons_unit_zero (S := S80x1) hz, View.readCov_unit_zero (S := S80x1) _ hz]
  whole_loads

theorem first_1 (hc0 : cond0_0 i) (hc1 : ¬cond0_1 i) :
    sout0_A_1 c i arg2 harg2 arg3 harg3 arg4 harg4 arg5 harg5 arg6 harg6 arg7 harg7 arg8 harg8 arg9 harg9 hc0 hc1 x0 x1
      = k0_pay15 x0 (k0_pay7 (F := F)) := by
  read_back sout0_A_1 kernelRun0_A (scover0_A_1 c i arg2 harg2 arg3 harg3 arg4 harg4 arg5 harg5 arg6 harg6 arg7 harg7 arg8 harg8 arg9 harg9 hc0 hc1 x0 x1)
  rw [View.canon_cons_unit_zero (S := S80x1) hz, View.readCov_unit_zero (S := S80x1) _ hz]
  whole_loads

theorem first_2 (hc0 : cond0_0 i) (hc1 : ¬cond0_1 i) :
    sout0_A_2 c i arg2 harg2 arg3 harg3 arg4 harg4 arg5 harg5 arg6 harg6 arg7 harg7 arg8 harg8 arg9 harg9 hc0 hc1 x0 x1
      = k0_pay1 (k0_pay12 x1) (k0_pay8 (F := F)) := by
  read_back sout0_A_2 kernelRun0_A (scover0_A_2 c i arg2 harg2 arg3 harg3 arg4 harg4 arg5 harg5 arg6 harg6 arg7 harg7 arg8 harg8 arg9 harg9 hc0 hc1 x0 x1)
  rw [View.canon_cons_unit_zero (S := S80x1) hz, View.readCov_unit_zero (S := S80x1) _ hz]
  whole_loads

theorem first_3 (hc0 : cond0_0 i) (hc1 : ¬cond0_1 i) :
    sout0_A_3 c i arg2 harg2 arg3 harg3 arg4 harg4 arg5 harg5 arg6 harg6 arg7 harg7 arg8 harg8 arg9 harg9 hc0 hc1 x0 x1
      = k0_pay3 (k0_pay11 x0) (k0_pay12 x1) (k0_pay9 (F := F)) := by
  read_back sout0_A_3 kernelRun0_A (scover0_A_3 c i arg2 harg2 arg3 harg3 arg4 harg4 arg5 harg5 arg6 harg6 arg7 harg7 arg8 harg8 arg9 harg9 hc0 hc1 x0 x1)
  rw [View.canon_cons_unit_zero (S := S80x80) hz, View.readCov_unit_zero (S := S80x80) _ hz]
  whole_loads

theorem first_4 (hc0 : cond0_0 i) (hc1 : ¬cond0_1 i) :
    sout0_A_4 c i arg2 harg2 arg3 harg3 arg4 harg4 arg5 harg5 arg6 harg6 arg7 harg7 arg8 harg8 arg9 harg9 hc0 hc1 x0 x1
      = k0_pay4 (k0_pay12 x1) (k0_pay13 x0) (k0_pay10 (F := F)) := by
  read_back sout0_A_4 kernelRun0_A (scover0_A_4 c i arg2 harg2 arg3 harg3 arg4 harg4 arg5 harg5 arg6 harg6 arg7 harg7 arg8 harg8 arg9 harg9 hc0 hc1 x0 x1)
  rw [View.canon_cons_unit_zero (S := S80x80) hz, View.readCov_unit_zero (S := S80x80) _ hz]
  whole_loads

/-! ## A middle point: the step over what the point before left

Each accumulator is loaded (at the contents `xs·` the point before left) and stored once. -/

theorem middle_0 (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 xs0 xs1 xs2 xs3 xs4
      = k0_pay14 x0 xs0 := by
  read_back sout0_B_0 kernelRun0_B (scover0_B_0 c i arg2 harg2 arg3 harg3 arg4 harg4 arg5 harg5 arg6 harg6 arg7 harg7 arg8 harg8 arg9 harg9 hc0 hc1 x0 x1 xs0 xs1 xs2 xs3 xs4)
  rw [View.canon_unit_zero hz]
  whole_loads

theorem middle_1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 xs0 xs1 xs2 xs3 xs4
      = k0_pay15 x0 xs1 := by
  read_back sout0_B_1 kernelRun0_B (scover0_B_1 c i arg2 harg2 arg3 harg3 arg4 harg4 arg5 harg5 arg6 harg6 arg7 harg7 arg8 harg8 arg9 harg9 hc0 hc1 x0 x1 xs0 xs1 xs2 xs3 xs4)
  rw [View.canon_unit_zero hz]
  whole_loads

theorem middle_2 (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 xs0 xs1 xs2 xs3 xs4
      = k0_pay1 (k0_pay12 x1) xs2 := by
  read_back sout0_B_2 kernelRun0_B (scover0_B_2 c i arg2 harg2 arg3 harg3 arg4 harg4 arg5 harg5 arg6 harg6 arg7 harg7 arg8 harg8 arg9 harg9 hc0 hc1 x0 x1 xs0 xs1 xs2 xs3 xs4)
  rw [View.canon_unit_zero hz]
  whole_loads

theorem middle_3 (hc0 : ¬cond0_0 i) (hc1 : ¬cond0_1 i) :
    sout0_B_3 c i arg2 harg2 arg3 harg3 arg4 harg4 arg5 harg5 arg6 harg6 arg7 harg7 arg8 harg8 arg9 harg9 hc0 hc1 x0 x1 xs0 xs1 xs2 xs3 xs4
      = k0_pay3 (k0_pay11 x0) (k0_pay12 x1) xs3 := by
  read_back sout0_B_3 kernelRun0_B (scover0_B_3 c i arg2 harg2 arg3 harg3 arg4 harg4 arg5 harg5 arg6 harg6 arg7 harg7 arg8 harg8 arg9 harg9 hc0 hc1 x0 x1 xs0 xs1 xs2 xs3 xs4)
  rw [View.canon_unit_zero hz]
  whole_loads

theorem middle_4 (hc0 : ¬cond0_0 i) (hc1 : ¬cond0_1 i) :
    sout0_B_4 c i arg2 harg2 arg3 harg3 arg4 harg4 arg5 harg5 arg6 harg6 arg7 harg7 arg8 harg8 arg9 harg9 hc0 hc1 x0 x1 xs0 xs1 xs2 xs3 xs4
      = k0_pay4 (k0_pay12 x1) (k0_pay13 x0) xs4 := by
  read_back sout0_B_4 kernelRun0_B (scover0_B_4 c i arg2 harg2 arg3 harg3 arg4 harg4 arg5 harg5 arg6 harg6 arg7 harg7 arg8 harg8 arg9 harg9 hc0 hc1 x0 x1 xs0 xs1 xs2 xs3 xs4)
  rw [View.canon_unit_zero hz]
  whole_loads

/-! ## The last point: the same step, and the output block -/

theorem last_0 (hc0 : ¬cond0_0 i) (hc1 : cond0_1 i) :
    sout0_C_0 c i arg2 harg2 arg3 harg3 arg4 harg4 arg5 harg5 arg6 harg6 arg7 harg7 arg8 harg8 arg9 harg9 hc0 hc1 x0 x1 xs0 xs1 xs2 xs3 xs4
      = k0_pay14 x0 xs0 := by
  read_back sout0_C_0 kernelRun0_C (scover0_C_0 c i arg2 harg2 arg3 harg3 arg4 harg4 arg5 harg5 arg6 harg6 arg7 harg7 arg8 harg8 arg9 harg9 hc0 hc1 x0 x1 xs0 xs1 xs2 xs3 xs4)
  rw [View.canon_unit_zero hz]
  whole_loads

theorem last_1 (hc0 : ¬cond0_0 i) (hc1 : cond0_1 i) :
    sout0_C_1 c i arg2 harg2 arg3 harg3 arg4 harg4 arg5 harg5 arg6 harg6 arg7 harg7 arg8 harg8 arg9 harg9 hc0 hc1 x0 x1 xs0 xs1 xs2 xs3 xs4
      = k0_pay15 x0 xs1 := by
  read_back sout0_C_1 kernelRun0_C (scover0_C_1 c i arg2 harg2 arg3 harg3 arg4 harg4 arg5 harg5 arg6 harg6 arg7 harg7 arg8 harg8 arg9 harg9 hc0 hc1 x0 x1 xs0 xs1 xs2 xs3 xs4)
  rw [View.canon_unit_zero hz]
  whole_loads

theorem last_2 (hc0 : ¬cond0_0 i) (hc1 : cond0_1 i) :
    sout0_C_2 c i arg2 harg2 arg3 harg3 arg4 harg4 arg5 harg5 arg6 harg6 arg7 harg7 arg8 harg8 arg9 harg9 hc0 hc1 x0 x1 xs0 xs1 xs2 xs3 xs4
      = k0_pay1 (k0_pay12 x1) xs2 := by
  read_back sout0_C_2 kernelRun0_C (scover0_C_2 c i arg2 harg2 arg3 harg3 arg4 harg4 arg5 harg5 arg6 harg6 arg7 harg7 arg8 harg8 arg9 harg9 hc0 hc1 x0 x1 xs0 xs1 xs2 xs3 xs4)
  rw [View.canon_unit_zero hz]
  whole_loads

theorem last_3 (hc0 : ¬cond0_0 i) (hc1 : cond0_1 i) :
    sout0_C_3 c i arg2 harg2 arg3 harg3 arg4 harg4 arg5 harg5 arg6 harg6 arg7 harg7 arg8 harg8 arg9 harg9 hc0 hc1 x0 x1 xs0 xs1 xs2 xs3 xs4
      = k0_pay3 (k0_pay11 x0) (k0_pay12 x1) xs3 := by
  read_back sout0_C_3 kernelRun0_C (scover0_C_3 c i arg2 harg2 arg3 harg3 arg4 harg4 arg5 harg5 arg6 harg6 arg7 harg7 arg8 harg8 arg9 harg9 hc0 hc1 x0 x1 xs0 xs1 xs2 xs3 xs4)
  rw [View.canon_unit_zero hz]
  whole_loads

theorem last_4 (hc0 : ¬cond0_0 i) (hc1 : cond0_1 i) :
    sout0_C_4 c i arg2 harg2 arg3 harg3 arg4 harg4 arg5 harg5 arg6 harg6 arg7 harg7 arg8 harg8 arg9 harg9 hc0 hc1 x0 x1 xs0 xs1 xs2 xs3 xs4
      = k0_pay4 (k0_pay12 x1) (k0_pay13 x0) xs4 := by
  read_back sout0_C_4 kernelRun0_C (scover0_C_4 c i arg2 harg2 arg3 harg3 arg4 harg4 arg5 harg5 arg6 harg6 arg7 harg7 arg8 harg8 arg9 harg9 hc0 hc1 x0 x1 xs0 xs1 xs2 xs3 xs4)
  rw [View.canon_unit_zero hz]
  whole_loads

/-- The output block, stored once at the last point: the final formula over the five accumulators, each loaded back
    from the store this same run has just made (a load of a buffer after the store that covers it is that store's
    value). -/
theorem last_out (hc0 : ¬cond0_0 i) (hc1 : cond0_1 i) :
    out0_C_2 c i arg2 harg2 arg3 harg3 arg4 harg4 arg5 harg5 arg6 harg6 arg7 harg7 arg8 harg8 arg9 harg9 hc0 hc1 x0 x1 xs0 xs1 xs2 xs3 xs4
      = k0_pay5 (k0_pay14 x0 xs0) (k0_pay3 (k0_pay11 x0) (k0_pay12 x1) xs3) (k0_pay4 (k0_pay12 x1) (k0_pay13 x0) xs4)
          (k0_pay1 (k0_pay12 x1) xs2) (k0_pay15 x0 xs1) := by
  read_back out0_C_2 kernelRun0_C (cover0_C_2 c i arg2 harg2 arg3 harg3 arg4 harg4 arg5 harg5 arg6 harg6 arg7 harg7 arg8 harg8 arg9 harg9 hc0 hc1 x0 x1 xs0 xs1 xs2 xs3 xs4)
  rw [View.canon_unit_zero hz]
  whole_loads
  rw [View.readCov_unit_zero (S := S80x1) arg5.view hz, View.readCov_unit_zero (S := S80x80) arg8.view hz,
    View.readCov_unit_zero (S := S80x80) arg9.view hz, View.readCov_unit_zero (S := S80x1) arg7.view hz,
    View.readCov_unit_zero (S := S80x1) arg6.view hz]

end Cert.Pieces

end
-- ==== Proof.CostSpec.lean ====
/-
  The matching cost as one function of three arrays: the sampled mask logits `X` (400 rows of 12544 points),
  the sampled target masks `Y` (80 rows of 12544 points) and the class cost `CC` (400 × 80).

  For a prediction row `i` and a target row `j`:
    mask cost  = (Σ_q softplus X(i,q)) · (1/12544) − (Σ_q X(i,q)·Y(j,q)) · (1/12544)
    dice cost  = 1 − (2 · Σ_q σ(X(i,q))·Y(j,q) + 1) / ((Σ_q σ(X(i,q)) + Σ_q Y(j,q)) + 1)
    cost       = 2 · CC(i,j) + (5 · mask cost + 5 · dice cost)
  with softplus x = max(x,0) + log(1 + e^(−|x|)) and σ the logistic function, all on the extended reals.

  The five sums run over the 12544 sample points. A sum over the points is reached tile by tile: seven
  consecutive tiles of 1792 points; `partialSum g k` is the sum over the first `k` tiles.
-/
import Idealize.ShloMosaic.PureOps.Ideal
import Idealize.ShloMosaic.Lib.ValueIdx

noncomputable section

namespace Cert.CostSpec

open Idealize.ShloMosaic Idealize.ShloMosaic.ValueIdx

/-! ## Sums over the sample points, tile by tile -/

section Tiles

variable {M : Type*} [AddCommMonoid M]

/-- A function of the sample point, extended by zero past the last point. -/
def ext (g : Fin 12544 → M) (q : ℕ) : M := if h : q < 12544 then g ⟨q, h⟩ else 0

/-- The sum of `g` over the first `k` tiles of 1792 points. -/
def partialSum (g : Fin 12544 → M) (k : ℕ) : M := ∑ q ∈ Finset.range (1792 * k), ext g q

theorem partialSum_zero (g : Fin 12544 → M) : partialSum g 0 = 0 := by
  unfold partialSum; simp

/-- One more tile: the sum over the first `k + 1` tiles is the sum over the first `k` plus tile `k`'s own sum. -/
theorem partialSum_succ (g : Fin 12544 → M) (k : ℕ) (hk : k < 7) :
    partialSum g (k + 1) = partialSum g k + ∑ q' : Fin 1792, g ⟨1792 * k + q'.val, by have := q'.isLt; omega⟩ := by
  unfold partialSum
  rw [show 1792 * (k + 1) = 1792 * k + 1792 by ring, Finset.sum_range_add]
  congr 1
  rw [Finset.sum_fin_eq_sum_range]
  refine Finset.sum_congr rfl fun x hx => ?_
  rw [Finset.mem_range] at hx
  rw [dif_pos hx]
  unfold ext
  rw [dif_pos (by omega)]

/-- Seven tiles are all the points. -/
theorem partialSum_seven (g : Fin 12544 → M) : partialSum g 7 = ∑ q : Fin 12544, g q := by
  unfold partialSum
  rw [Finset.sum_fin_eq_sum_range]
  rfl

end Tiles

/-! ## The cost -/

abbrev SX : Shape := ⟨2, ![400, 12544]⟩
abbrev SY : Shape := ⟨2, ![80, 12544]⟩
abbrev SC : Shape := ⟨2, ![400, 80]⟩

/-- `log (1 + eˣ)` in the form that does not overflow: `max(x, 0) + log(1 + e^(−|x|))`. -/
def softplus (x : EReal) : EReal := max x 0 + Ideal.log1p (Ideal.exp (-(max x (-x))))

/-- The float constants of the formula, as the patterns both programs spell. -/
def two : EReal := Ideal.ofBits .f32 0x40000000#32
def five : EReal := Ideal.ofBits .f32 0x40A00000#32
def one : EReal := Ideal.ofBits .f32 0x3F800000#32
/-- The reciprocal of the number of sample points. -/
def invN : EReal := ((1 / 12544 : ℝ) : EReal)

variable (X : SX.Idx → EReal) (Y : SY.Idx → EReal) (CC : SC.Idx → EReal)

/-- The five summands, as functions of the sample point. -/
def spTerm (i : Fin 400) (q : Fin 12544) : EReal := softplus (X (ix2 i q))
def sgTerm (i : Fin 400) (q : Fin 12544) : EReal := Ideal.logistic (X (ix2 i q))
def yTerm (j : Fin 80) (q : Fin 12544) : EReal := Y (ix2 j q)
def xyTerm (i : Fin 400) (j : Fin 80) (q : Fin 12544) : EReal := X (ix2 i q) * Y (ix2 j q)
def syTerm (i : Fin 400) (j : Fin 80) (q : Fin 12544) : EReal := Ideal.logistic (X (ix2 i q)) * Y (ix2 j q)

/-- The formula over the five sums. -/
def combine (sp sg sy xy sgy : EReal) : EReal :=
  five * (sp * invN - xy * invN) + five * (one - Ideal.div (two * sgy + one) ((sg + sy) + one))

/-- The point cost (mask cost and dice cost, weighted) of prediction row `i` against target row `j`. -/
def pointCost (i : Fin 400) (j : Fin 80) : EReal :=
  combine (∑ q, spTerm X i q) (∑ q, sgTerm X i q) (∑ q, yTerm Y j q) (∑ q, xyTerm X Y i j q) (∑ q, syTerm X Y i j q)

/-- The whole cost. -/
def cost (i : Fin 400) (j : Fin 80) : EReal := two * CC (ix2 i j) + pointCost X Y i j

end Cert.CostSpec

end
-- ==== Proof.Payloads.lean ====
/-
  The kernel body's arithmetic, read at an index on the extended reals.

  Each grid point holds one tile of 1792 sample points: 80 rows of the mask logits `x` and 80 rows of the target
  masks `y`. The body adds to five running sums kept between tiles: per row of `x` the sum of softplus and the sum
  of the logistic function over the tile's points; per row of `y` the sum of its entries; and for every pair of rows
  `(r, j)` the sums of `x(r,q) · y(j,q)` and of `σ(x(r,q)) · y(j,q)` over the tile's points `q`. The first tile starts
  the sums at zero and the last tile applies the cost formula to them. Here every value the body stores is read at an
  index `(r, z)` or `(r, j)` as that arithmetic: a lane reduction as a sum over `q : Fin 1792`, a contraction of two
  tiles along their lanes as the sum of products, a change of float format as the identity, a cast to the same shape
  as the identity, and the broadcasts of the sum columns as reads of the column's entry.
-/
import proofs.«113204_j56581899157958_1_alg».proof.Proof.Gen.KernelIdeal.Skeleton
import proofs.«113204_j56581899157958_1_alg».proof.Proof.CostSpec
import Idealize.ShloMosaic.Lib.ValueIdx
import Idealize.ShloMosaic.Lib.Pipeline.Value
import Idealize.ShloMosaic.Lib.ValueLayout
import Idealize.ShloMosaic.PureOps.Ideal.Laws

noncomputable section

namespace Cert.Payloads

open Cert.KernelIdeal Cert.KernelIdeal.Gen Idealize.ShloMosaic Idealize.ShloMosaic.ValueIdx

/-! ## Layout operations of this body, read at an index given by coordinates -/

section Layout
variable {α : Type}

/-- A vector `[a]` cast to the column `[a, 1]` reads, at `(i, z)`, the operand at `i`. -/
theorem shapeCast_a_a1_apply {a : ℕ} (x : (⟨1, ![a]⟩ : Shape).Idx → α) (h : (⟨1, ![a]⟩ : Shape).ShapeCasts ⟨2, ![a, 1]⟩)
    (i : Fin a) (z : Fin 1) : shapeCast ⟨2, ![a, 1]⟩ x h (ix2 i z) = x (ix1 i) :=
  shapeCast_apply x h _ _ (by
    have hz : z.val = 0 := by omega
    rw [Shape.rowMajor_val_two, Shape.rowMajor_val_one]
    show i.val = i.val * 1 + z.val
    rw [hz, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the lanes of an `[80, 1792]` vector, read at row `r`: the sum of the row's 1792 entries. -/
theorem rowSum_apply (v : FVec Ideal S80x1792 .f32) (h : S80x1792.Reduces [1] S80) (hφ : FKind.Formats .f32)
    (hacc : (0x00000000#32 : BitVec 32) = FKind.add.neutral .f32 hφ) (r : Fin 80) :
    multiReduction (F := Ideal) .add [1] S80 v 0x00000000#32 h hφ hacc (ix1 r) = ∑ q : Fin 1792, v (ix2 r q) := by
  refine (Ideal.multiReduction_add_single v _ h hφ hacc (ix1 r)).trans ?_
  refine Finset.sum_congr rfl fun q _ => congrArg v ?_
  funext c
  match c with
  | ⟨0, _⟩ => rfl
  | ⟨1, _⟩ => rfl

/-- The row sums as the column the body accumulates: at `(r, z)` the sum of row `r`. -/
theorem rowSumCol_apply (v : FVec Ideal S80x1792 .f32) (h : S80x1792.Reduces [1] S80) (hφ : FKind.Formats .f32)
    (hacc : (0x00000000#32 : BitVec 32) = FKind.add.neutral .f32 hφ) (hc : S80.ShapeCasts S80x1) (r : Fin 80) (z : Fin 1) :
    shapeCast S80x1 (multiReduction (F := Ideal) .add [1] S80 v 0x00000000#32 h hφ hacc) hc (ix2 r z)
      = ∑ q : Fin 1792, v (ix2 r q) :=
  (shapeCast_a_a1_apply _ hc r z).trans (rowSum_apply v h hφ hacc r)

/-! ## The loaded tiles and the logistic -/

/-- The tile of `x` as the body uses it is the loaded tile (a cast to the same shape). -/
theorem pay11_eq (v3 : Vec Ideal S80x1792 .f32) : k0_pay11 (F := Ideal) v3 = v3 := by
  unfold k0_pay11
  exact shapeCast_self _ _

/-- The tile of `y` likewise. -/
theorem pay12_eq (v5 : Vec Ideal S80x1792 .f32) : k0_pay12 (F := Ideal) v5 = v5 := by
  unfold k0_pay12
  exact shapeCast_self _ _

/-- The logistic of the tile of `x`, entry by entry. -/
theorem pay13_apply (v3 : Vec Ideal S80x1792 .f32) (r : Fin 80) (q : Fin 1792) :
    k0_pay13 (F := Ideal) v3 (ix2 r q) = Ideal.logistic (v3 (ix2 r q)) := by
  unfold k0_pay13
  rw [pay11_eq]
  rfl

/-! ## The first tile's zeros -/

theorem pay6_apply (r : Fin 80) (z : Fin 1) : k0_pay6 (F := Ideal) (ix2 r z) = 0 := by
  unfold k0_pay6
  exact (congrFun (shapeCast_self _ _) _).trans Ideal.ofBits_zero_f32

theorem pay7_apply (r : Fin 80) (z : Fin 1) : k0_pay7 (F := Ideal) (ix2 r z) = 0 := by
  unfold k0_pay7
  exact (congrFun (shapeCast_self _ _) _).trans Ideal.ofBits_zero_f32

theorem pay8_apply (r : Fin 80) (z : Fin 1) : k0_pay8 (F := Ideal) (ix2 r z) = 0 := by
  unfold k0_pay8
  exact (congrFun (shapeCast_self _ _) _).trans Ideal.ofBits_zero_f32

theorem pay9_apply (r j : Fin 80) : k0_pay9 (F := Ideal) (ix2 r j) = 0 := by
  unfold k0_pay9
  exact (congrFun (shapeCast_self _ _) _).trans Ideal.ofBits_zero_f32

theorem pay10_apply (r j : Fin 80) : k0_pay10 (F := Ideal) (ix2 r j) = 0 := by
  unfold k0_pay10
  exact (congrFun (shapeCast_self _ _) _).trans Ideal.ofBits_zero_f32

/-! ## The three row sums, accumulated -/

/-- The sum of `y` over the tile's points, added to the running sum so far. -/
theorem pay1_apply (v6 : FVec Ideal S80x1792 .f32) (old : Vec Ideal S80x1 .f32) (r : Fin 80) (z : Fin 1) :
    k0_pay1 (F := Ideal) v6 old (ix2 r z) = old (ix2 r z) + ∑ q : Fin 1792, v6 (ix2 r q) := by
  unfold k0_pay1
  refine (congrFun (shapeCast_self _ _) _).trans ?_
  exact congrArg (old (ix2 r z) + ·) (rowSumCol_apply v6 _ _ _ _ r z)

/-- The sum of the logistic of `x` over the tile's points, added to the running sum so far. -/
theorem pay15_apply (v3 : Vec Ideal S80x1792 .f32) (old : Vec Ideal S80x1 .f32) (r : Fin 80) (z : Fin 1) :
    k0_pay15 (F := Ideal) v3 old (ix2 r z) = old (ix2 r z) + ∑ q : Fin 1792, Ideal.logistic (v3 (ix2 r q)) := by
  unfold k0_pay15
  refine (congrFun (shapeCast_self _ _) _).trans ?_
  refine congrArg (old (ix2 r z) + ·) ((rowSumCol_apply (k0_pay13 (F := Ideal) v3) _ _ _ _ r z).trans ?_)
  exact Finset.sum_congr rfl fun q _ => pay13_apply v3 r q

/-! ## The two contractions over the tile's points

Both products contract the lane axis of the two `[80, 1792]` operands: entry `(r, j)` is the sum over the tile's
points `q` of the left operand at `(r, q)` times the right at `(j, q)`. -/

/-- The contraction's dimension numbers: axis 1 with axis 1, rows of the left operand by rows of the right. -/
abbrev dotQ : DotDims S80x1792 S80x1792 S80x80 := dot_S80x1792_S80x1792_S80x80_1_1_0_0_n_n

theorem dotQ_lhs0 (i : S80x80.Idx) (q : dotQ.contr.Idx) : (dotQ.lhsIdx i q 0).val = (i 0).val := by
  unfold DotDims.lhsIdx
  rw [dif_neg (show ¬(0 : Fin S80x1792.rank) ∈ dotQ.lhsBatch by decide),
    dif_pos (show (0 : Fin S80x1792.rank) ∈ dotQ.lhsNonContracting by decide)]
  rfl
theorem dotQ_lhs1 (i : S80x80.Idx) (q : dotQ.contr.Idx) : (dotQ.lhsIdx i q 1).val = (q ⟨0, by decide⟩).val :=
  dotQ.lhsIdx_val_of_single rfl i q
theorem dotQ_rhs0 (i : S80x80.Idx) (q : dotQ.contr.Idx) : (dotQ.rhsIdx i q 0).val = (i 1).val := by
  unfold DotDims.rhsIdx
  rw [dif_neg (show ¬(0 : Fin S80x1792.rank) ∈ dotQ.rhsBatch by decide),
    dif_pos (show (0 : Fin S80x1792.rank) ∈ dotQ.rhsNonContracting by decide)]
  rfl
theorem dotQ_rhs1 (i : S80x80.Idx) (q : dotQ.contr.Idx) : (dotQ.rhsIdx i q 1).val = (q ⟨0, by decide⟩).val :=
  dotQ.rhsIdx_val_of_single rfl i q

/-- The product into a zero accumulator, read at `(r, j)`. -/
theorem dotQ_apply {φ₁ φ₂ : FTy} (a : FVec Ideal S80x1792 φ₁) (b : FVec Ideal S80x1792 φ₂) (r j : Fin 80) :
    matmul (F := Ideal) dotQ none a b (constant (F := Ideal) S80x80 .f32 0x00000000#32) (ix2 r j)
      = ∑ q : Fin 1792, a (ix2 r q) * b (ix2 j q) := by
  refine (Ideal.matmul_constant_zero_apply dotQ none a b (ix2 r j)).trans ?_
  rw [← Equiv.sum_comp (contrEquiv1 dotQ 1792 rfl rfl).symm]
  refine Finset.sum_congr rfl fun k _ => ?_
  have hk := contrEquiv1_symm_val dotQ 1792 rfl rfl k
  have el : dotQ.lhsIdx (ix2 r j) ((contrEquiv1 dotQ 1792 rfl rfl).symm k) = ix2 r k := funext fun c => Fin.ext (by
    match c with
    | ⟨0, _⟩ => exact dotQ_lhs0 _ _
    | ⟨1, _⟩ => exact (dotQ_lhs1 _ _).trans hk)
  have er : dotQ.rhsIdx (ix2 r j) ((contrEquiv1 dotQ 1792 rfl rfl).symm k) = ix2 j k := funext fun c => Fin.ext (by
    match c with
    | ⟨0, _⟩ => exact dotQ_rhs0 _ _
    | ⟨1, _⟩ => exact (dotQ_rhs1 _ _).trans hk)
  rw [el, er]

/-- The sum of `x · y` over the tile's points, added to the running sum so far. -/
theorem pay3_apply (v4 v6 : FVec Ideal S80x1792 .f32) (old : Vec Ideal S80x80 .f32) (r j : Fin 80) :
    k0_pay3 (F := Ideal) v4 v6 old (ix2 r j) = old (ix2 r j) + ∑ q : Fin 1792, v4 (ix2 r q) * v6 (ix2 j q) := by
  unfold k0_pay3 k0_pay2
  refine (congrFun (shapeCast_self _ _) _).trans ?_
  exact congrArg (old (ix2 r j) + ·) (dotQ_apply (truncf .bf16 v4 bitsLt_bf16_f32) (truncf .bf16 v6 bitsLt_bf16_f32) r j)

/-- The sum of `σ(x) · y` over the tile's points, added to the running sum so far. -/
theorem pay4_apply (v6 v21 : FVec Ideal S80x1792 .f32) (old : Vec Ideal S80x80 .f32) (r j : Fin 80) :
    k0_pay4 (F := Ideal) v6 v21 old (ix2 r j) = old (ix2 r j) + ∑ q : Fin 1792, v21 (ix2 r q) * v6 (ix2 j q) := by
  unfold k0_pay4 k0_pay2
  refine (congrFun (shapeCast_self _ _) _).trans ?_
  exact congrArg (old (ix2 r j) + ·) (dotQ_apply (truncf .bf16 v21 bitsLt_bf16_f32) (truncf .bf16 v6 bitsLt_bf16_f32) r j)

/-! ## The softplus row sum -/

/-- One entry of the body's softplus. The body computes `max(x, 0) + log1p(exp(0 − |x − 0|))` and selects `x + 0`
    instead where `x − 0` differs from itself; on the extended reals nothing differs from itself, so the entry is
    the specification's softplus. -/
theorem softplus_entry (x : EReal) :
    Scalar.select (Ideal.cmp .one (x - Ideal.ofBits .f32 0x00000000#32) (x - Ideal.ofBits .f32 0x00000000#32))
        (x + Ideal.ofBits .f32 0x00000000#32)
        (max x (Ideal.ofBits .f32 0x00000000#32)
          + Ideal.log1p (Ideal.exp (Ideal.ofBits .f32 0x00000000#32
              - max (x - Ideal.ofBits .f32 0x00000000#32) (-(x - Ideal.ofBits .f32 0x00000000#32)))))
      = Cert.CostSpec.softplus x := by
  have hc : Ideal.cmp .one (x - 0) (x - 0) = 0#1 := by simp [Ideal.cmp]
  rw [Ideal.ofBits_zero_f32, hc, select_zero, sub_zero, zero_sub]
  rfl

/-- The sum of softplus of `x` over the tile's points, added to the running sum so far. -/
theorem pay14_apply (v3 : Vec Ideal S80x1792 .f32) (old : Vec Ideal S80x1 .f32) (r : Fin 80) (z : Fin 1) :
    k0_pay14 (F := Ideal) v3 old (ix2 r z) = old (ix2 r z) + ∑ q : Fin 1792, Cert.CostSpec.softplus (v3 (ix2 r q)) := by
  unfold k0_pay14
  rw [pay11_eq]
  refine (congrFun (shapeCast_self _ _) _).trans ?_
  refine congrArg (old (ix2 r z) + ·) ((rowSumCol_apply _ _ _ _ _ r z).trans ?_)
  exact Finset.sum_congr rfl fun q _ => softplus_entry (v3 (ix2 r q))

/-! ## The cost formula at the last tile -/

/-- The body's named constant is the reciprocal of the number of sample points. -/
theorem inv_points :
    Named.named (F := Ideal) Cert.KernelIdeal.κ "inv_12544" (φ := .f32) 0x38A72F05#32 = Cert.CostSpec.invN :=
  IdealRules.named_const.ideal_named_scalar _ _ _ _ rfl

/-- The formula over the five accumulated sums: entry `(r, j)` combines row `r`'s softplus and logistic sums, row
    `j`'s sum of `y` (the column of sums transposed to a row, then repeated down the rows) and the two products at
    `(r, j)`. -/
theorem pay5_apply (sp : Vec Ideal S80x1 .f32) (xy sy : Vec Ideal S80x80 .f32) (sumy ss : Vec Ideal S80x1 .f32) (r j : Fin 80) :
    k0_pay5 (F := Ideal) sp xy sy sumy ss (ix2 r j)
      = Cert.CostSpec.combine (sp (ix2 r (0 : Fin 1))) (ss (ix2 r (0 : Fin 1))) (sumy (ix2 j (0 : Fin 1)))
          (xy (ix2 r j)) (sy (ix2 r j)) := by
  unfold k0_pay5
  dsimp only
  simp only [addf_apply, subf_apply, mulf_apply, divf_apply, broadcast_apply]
  rw [broadcastTo_a1_ab_apply, broadcastTo_a1_ab_apply, broadcastTo_1b_ab_apply, transpose_ix2_apply]
  simp only [mulf_apply, broadcast_apply, inv_points]
  rfl

end Cert.Payloads

end
-- ==== Proof.Accum.lean ====
/-
  The kernel's five accumulators, as mathematics. For a block of 80 prediction rows (block `n` of five) the
  kernel keeps, per row `r` of the block and per target row `j`: the sum of softplus over the points seen so far, the
  sum of the logistic function, the sum of the target mask, and the two inner products (logits · mask and
  logistic · mask). `Acc … k` says they hold exactly the sums over the first `k` tiles of 1792 points.

  Three facts: before any tile the zeros are `Acc … 0`; one step of the body on tile `p` takes `Acc … p` to
  `Acc … (p + 1)`; and on `Acc … 7` (all 12544 points) the body's final formula is the point cost of the
  specification.
-/
import proofs.«113204_j56581899157958_1_alg».proof.Proof.CostSpec
import proofs.«113204_j56581899157958_1_alg».proof.Proof.Payloads

noncomputable section

namespace Cert.Accum

open Cert.KernelIdeal Cert.KernelIdeal.Gen Cert.CostSpec Idealize.ShloMosaic Idealize.ShloMosaic.ValueIdx

/-- Row `r` of row block `n`, among the 400 prediction rows. -/
abbrev row (n : ℕ) (hn : n < 5) (r : Fin 80) : Fin 400 := ⟨80 * n + r.val, by have := r.isLt; omega⟩

/-- Point `q` of tile `p`, among the 12544 sample points. -/
abbrev pt (p : ℕ) (hp : p < 7) (q : Fin 1792) : Fin 12544 := ⟨1792 * p + q.val, by have := q.isLt; omega⟩

variable (X : SX.Idx → EReal) (Y : SY.Idx → EReal)

/-- `x` is the tile of `X` at row block `n`, column tile `p`. -/
def TileX (n p : ℕ) (hn : n < 5) (hp : p < 7) (x : Vec Ideal S80x1792 .f32) : Prop :=
  ∀ (r : Fin 80) (q : Fin 1792), x (ix2 r q) = X (ix2 (row n hn r) (pt p hp q))

/-- `y` is column tile `p` of `Y` (all 80 target rows). -/
def TileY (p : ℕ) (hp : p < 7) (y : Vec Ideal S80x1792 .f32) : Prop :=
  ∀ (j : Fin 80) (q : Fin 1792), y (ix2 j q) = Y (ix2 j (pt p hp q))

/-- The five accumulators hold the sums over the first `k` tiles, for row block `n`. -/
structure Acc (n : ℕ) (hn : n < 5) (k : ℕ) (s0 s1 s2 : Vec Ideal S80x1 .f32) (s3 s4 : Vec Ideal S80x80 .f32) : Prop where
  sp : ∀ (r : Fin 80) (z : Fin 1), s0 (ix2 r z) = partialSum (spTerm X (row n hn r)) k
  sg : ∀ (r : Fin 80) (z : Fin 1), s1 (ix2 r z) = partialSum (sgTerm X (row n hn r)) k
  sy : ∀ (j : Fin 80) (z : Fin 1), s2 (ix2 j z) = partialSum (yTerm Y j) k
  xy : ∀ (r j : Fin 80), s3 (ix2 r j) = partialSum (xyTerm X Y (row n hn r) j) k
  sgy : ∀ (r j : Fin 80), s4 (ix2 r j) = partialSum (syTerm X Y (row n hn r) j) k

/-- Before the first tile: the zeros the body stores at a row block's first point. -/
theorem acc_zero (n : ℕ) (hn : n < 5) :
    Acc X Y n hn 0 (k0_pay6 (F := Ideal)) (k0_pay7 (F := Ideal)) (k0_pay8 (F := Ideal)) (k0_pay9 (F := Ideal)) (k0_pay10 (F := Ideal)) where
  sp := fun r z => (Cert.Payloads.pay6_apply r z).trans (partialSum_zero _).symm
  sg := fun r z => (Cert.Payloads.pay7_apply r z).trans (partialSum_zero _).symm
  sy := fun j z => (Cert.Payloads.pay8_apply j z).trans (partialSum_zero _).symm
  xy := fun r j => (Cert.Payloads.pay9_apply r j).trans (partialSum_zero _).symm
  sgy := fun r j => (Cert.Payloads.pay10_apply r j).trans (partialSum_zero _).symm

/-- One tile: the body's five accumulating stores take the sums over `p` tiles to the sums over `p + 1`. -/
theorem acc_step (n p : ℕ) (hn : n < 5) (hp : p < 7) (x y : Vec Ideal S80x1792 .f32)
    (hx : TileX X n p hn hp x) (hy : TileY Y p hp y)
    (s0 s1 s2 : Vec Ideal S80x1 .f32) (s3 s4 : Vec Ideal S80x80 .f32) (h : Acc X Y n hn p s0 s1 s2 s3 s4) :
    Acc X Y n hn (p + 1) (k0_pay14 (F := Ideal) x s0) (k0_pay15 (F := Ideal) x s1) (k0_pay1 (F := Ideal) (k0_pay12 (F := Ideal) y) s2)
      (k0_pay3 (F := Ideal) (k0_pay11 (F := Ideal) x) (k0_pay12 (F := Ideal) y) s3)
      (k0_pay4 (F := Ideal) (k0_pay12 (F := Ideal) y) (k0_pay13 (F := Ideal) x) s4) where
  sp := fun r z => by
    refine (Cert.Payloads.pay14_apply x s0 r z).trans ?_
    rw [h.sp r z, partialSum_succ _ p hp]
    refine congrArg (_ + ·) (Finset.sum_congr rfl fun q _ => ?_)
    show softplus (x (ix2 r q)) = softplus (X (ix2 (row n hn r) (pt p hp q)))
    rw [hx r q]
  sg := fun r z => by
    refine (Cert.Payloads.pay15_apply x s1 r z).trans ?_
    rw [h.sg r z, partialSum_succ _ p hp]
    refine congrArg (_ + ·) (Finset.sum_congr rfl fun q _ => ?_)
    show Ideal.logistic (x (ix2 r q)) = Ideal.logistic (X (ix2 (row n hn r) (pt p hp q)))
    rw [hx r q]
  sy := fun j z => by
    refine (Cert.Payloads.pay1_apply (k0_pay12 (F := Ideal) y) s2 j z).trans ?_
    rw [h.sy j z, partialSum_succ _ p hp, Cert.Payloads.pay12_eq]
    refine congrArg (_ + ·) (Finset.sum_congr rfl fun q _ => ?_)
    show y (ix2 j q) = Y (ix2 j (pt p hp q))
    exact hy j q
  xy := fun r j => by
    refine (Cert.Payloads.pay3_apply (k0_pay11 (F := Ideal) x) (k0_pay12 (F := Ideal) y) s3 r j).trans ?_
    rw [h.xy r j, partialSum_succ _ p hp, Cert.Payloads.pay11_eq, Cert.Payloads.pay12_eq]
    refine congrArg (_ + ·) (Finset.sum_congr rfl fun q _ => ?_)
    show x (ix2 r q) * y (ix2 j q) = X (ix2 (row n hn r) (pt p hp q)) * Y (ix2 j (pt p hp q))
    rw [hx r q, hy j q]
  sgy := fun r j => by
    refine (Cert.Payloads.pay4_apply (k0_pay12 (F := Ideal) y) (k0_pay13 (F := Ideal) x) s4 r j).trans ?_
    rw [h.sgy r j, partialSum_succ _ p hp, Cert.Payloads.pay12_eq]
    refine congrArg (_ + ·) (Finset.sum_congr rfl fun q _ => ?_)
    show k0_pay13 (F := Ideal) x (ix2 r q) * y (ix2 j q) = Ideal.logistic (X (ix2 (row n hn r) (pt p hp q))) * Y (ix2 j (pt p hp q))
    rw [Cert.Payloads.pay13_apply x r q, hx r q, hy j q]

/-- After the seventh tile the body's final formula is the point cost. -/
theorem acc_final (n : ℕ) (hn : n < 5) (s0 s1 s2 : Vec Ideal S80x1 .f32) (s3 s4 : Vec Ideal S80x80 .f32)
    (h : Acc X Y n hn 7 s0 s1 s2 s3 s4) (r j : Fin 80) :
    k0_pay5 (F := Ideal) s0 s3 s4 s2 s1 (ix2 r j) = pointCost X Y (row n hn r) j := by
  refine (Cert.Payloads.pay5_apply s0 s3 s4 s2 s1 r j).trans ?_
  rw [h.sp r 0, h.sg r 0, h.sy j 0, h.xy r j, h.sgy r j, partialSum_seven, partialSum_seven, partialSum_seven,
    partialSum_seven, partialSum_seven]
  rfl

end Cert.Accum

end
-- ==== Proof.KernelValue.lean ====
/-
  The kernel's output array as one function of the two arrays it reads.

  The grid has 5 × 7 points, visited row block by row block: point `t` works on row block `t / 7` (80 of the 400
  prediction rows) and column tile `t % 7` (1792 of the 12544 sample points). The first input window's block at
  `t` is that tile of the sampled logits `X`; the second window's block is column tile `t % 7` of the sampled
  target masks `Y`, all 80 target rows. By induction over the points the five accumulators hold, after point `t`,
  the sums over the first `t % 7 + 1` tiles for row block `t / 7`; at the seventh tile the body stores the point
  cost of its 80 rows against the 80 targets into the output block, which is written back to rows
  `80 · (t / 7) …` of the output array. The five row blocks tile the array, so it ends holding the point cost.
-/
import proofs.«113204_j56581899157958_1_alg».proof.Proof.Gen.KernelIdeal.Frame
import proofs.«113204_j56581899157958_1_alg».proof.Proof.Pieces
import proofs.«113204_j56581899157958_1_alg».proof.Proof.Accum
import Idealize.ShloMosaic.Lib.Pipeline.Value
import Idealize.ShloMosaic.Lib.ValueIdx

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.CostSpec Cert.Accum

variable (m : (ℓ : Loc nD τ sig) → Buf (Elt Ideal) ℓ) (ρ : Dev nD → PrngReg)

/-- The sampled mask logits and the sampled target masks, as the kernel finds them when it is launched. -/
def X (c : Dev nD) : SX.Idx → EReal := V m c main_v28
def Y (c : Dev nD) : SY.Idx → EReal := V m c main_v36

/-! ## Which tile a window's block is -/

/-- The printed index maps, decided over the 35 points: row block `t / 7`, column tile `t % 7`. -/
theorem idx_x : ∀ t : Fin cfg0.N, win0_0.index t (0 : Fin 2) = t.val / 7 ∧ win0_0.index t (1 : Fin 2) = t.val % 7 :=
  (by decide +kernel : ∀ t : Fin grid0.N, win0_0.index t (0 : Fin 2) = t.val / 7 ∧ win0_0.index t (1 : Fin 2) = t.val % 7)
theorem idx_y : ∀ t : Fin cfg0.N, win0_1.index t (0 : Fin 2) = 0 ∧ win0_1.index t (1 : Fin 2) = t.val % 7 :=
  (by decide +kernel : ∀ t : Fin grid0.N, win0_1.index t (0 : Fin 2) = 0 ∧ win0_1.index t (1 : Fin 2) = t.val % 7)
theorem idx_o : ∀ t : Fin cfg0.N, win0_2.index t (0 : Fin 2) = t.val / 7 ∧ win0_2.index t (1 : Fin 2) = 0 :=
  (by decide +kernel : ∀ t : Fin grid0.N, win0_2.index t (0 : Fin 2) = t.val / 7 ∧ win0_2.index t (1 : Fin 2) = 0)

/-- The first window's block at point `t` is tile `(t / 7, t % 7)` of `X`: entry `(r, q)` of the block is entry
    `(80 · (t / 7) + r, 1792 · (t % 7) + q)` of the array. -/
theorem tile_x (c : Dev nD) (t : Fin cfg0.N) (hn : t.val / 7 < 5) (hp : t.val % 7 < 7) :
    TileX (X m c) (t.val / 7) (t.val % 7) hn hp (iblk m c 0 t) := by
  intro r q
  unfold iblk
  rw [View.read_apply]
  show V m c main_v28 _ = V m c main_v28 _
  refine congrArg (V m c main_v28) (funext fun a => Fin.ext ?_)
  match a with
  | ⟨0, _⟩ => show win0_0.index t (0 : Fin 2) * 80 + 1 * r.val = 80 * (t.val / 7) + r.val; rw [(idx_x t).1]; omega
  | ⟨1, _⟩ => show win0_0.index t (1 : Fin 2) * 1792 + 1 * q.val = 1792 * (t.val % 7) + q.val; rw [(idx_x t).2]; omega

/-- The second window's block at point `t` is column tile `t % 7` of `Y`. -/
theorem tile_y (c : Dev nD) (t : Fin cfg0.N) (hp : t.val % 7 < 7) :
    TileY (Y m c) (t.val % 7) hp (iblk m c 1 t) := by
  intro j q
  unfold iblk
  rw [View.read_apply]
  show V m c main_v36 _ = V m c main_v36 _
  refine congrArg (V m c main_v36) (funext fun a => Fin.ext ?_)
  match a with
  | ⟨0, _⟩ => show win0_1.index t (0 : Fin 2) * 80 + 1 * j.val = j.val; rw [(idx_y t).1]; omega
  | ⟨1, _⟩ => show win0_1.index t (1 : Fin 2) * 1792 + 1 * q.val = 1792 * (t.val % 7) + q.val; rw [(idx_y t).2]; omega

/-! ## The accumulators after each point -/

/-- The five accumulators as the generated frame carries them (the last five components of its tuple). -/
def AccT (Xf : SX.Idx → EReal) (Yf : SY.Idx → EReal) (n : ℕ) (hn : n < 5) (k : ℕ)
    (o : Vec Ideal S80x80 .f32 × Vec Ideal S80x1 .f32 × Vec Ideal S80x1 .f32 × Vec Ideal S80x1 .f32 × Vec Ideal S80x80 .f32 × Vec Ideal S80x80 .f32) : Prop :=
  Acc Xf Yf n hn k o.2.1 o.2.2.1 o.2.2.2.1 o.2.2.2.2.1 o.2.2.2.2.2

/-- `Acc` along equal indices and equal contents. -/
theorem acc_of_eq {Xf : SX.Idx → EReal} {Yf : SY.Idx → EReal} {n n' k k' : ℕ} {hn : n < 5} {hn' : n' < 5}
    {s0 s0' s1 s1' s2 s2' : Vec Ideal S80x1 .f32} {s3 s3' s4 s4' : Vec Ideal S80x80 .f32}
    (en : n = n') (ek : k = k') (e0 : s0' = s0) (e1 : s1' = s1) (e2 : s2' = s2) (e3 : s3' = s3) (e4 : s4' = s4)
    (h : Acc Xf Yf n hn k s0 s1 s2 s3 s4) : Acc Xf Yf n' hn' k' s0' s1' s2' s3' s4' := by
  subst en ek e0 e1 e2 e3 e4; exact h

set_option hygiene false in
/-- A fact about one run of the body, at point `t`'s buffers and input blocks. -/
local macro "at_point% " f:term:max t:term:max : term =>
  `($f (F := Ideal) c (grid0.coords $t) (ms0_0 $t) (hs0_0 $t) (ms0_1 $t) (hs0_1 $t) (ms0_2 $t) (hs0_2 $t)
      scM0_0 (Memref.isWhole_whole _) scM0_1 (Memref.isWhole_whole _) scM0_2 (Memref.isWhole_whole _)
      scM0_3 (Memref.isWhole_whole _) scM0_4 (Memref.isWhole_whole _) (iblk m c 0 $t) (iblk m c 1 $t))

/-- At a row block's first point the accumulators hold the first tile's sums. -/
theorem acc_first (c : Dev nD) (t : Fin cfg0.N) (h0 : t.val % 7 = 0) (hn : t.val / 7 < 5) :
    AccT (X m c) (Y m c) (t.val / 7) hn (t.val % 7 + 1) (outsAt0 m c t.val t.isLt) := by
  have h1 : ¬t.val % 7 = 6 := by omega
  have hp : t.val % 7 < 7 := Nat.mod_lt _ (by decide)
  rw [outsAt0_A m c t h0 h1]
  unfold AccT
  dsimp only
  exact acc_of_eq rfl rfl
    ((at_point% Pieces.first_0 t) ((hcond0_0 t).mpr h0) (fun h => h1 ((hcond0_1 t).mp h)))
    ((at_point% Pieces.first_1 t) ((hcond0_0 t).mpr h0) (fun h => h1 ((hcond0_1 t).mp h)))
    ((at_point% Pieces.first_2 t) ((hcond0_0 t).mpr h0) (fun h => h1 ((hcond0_1 t).mp h)))
    ((at_point% Pieces.first_3 t) ((hcond0_0 t).mpr h0) (fun h => h1 ((hcond0_1 t).mp h)))
    ((at_point% Pieces.first_4 t) ((hcond0_0 t).mpr h0) (fun h => h1 ((hcond0_1 t).mp h)))
    (acc_step (X m c) (Y m c) (t.val / 7) (t.val % 7) hn hp (iblk m c 0 t) (iblk m c 1 t) (tile_x m c t hn hp) (tile_y m c t hp)
      (k0_pay6 (F := Ideal)) (k0_pay7 (F := Ideal)) (k0_pay8 (F := Ideal)) (k0_pay9 (F := Ideal)) (k0_pay10 (F := Ideal))
      (acc_of_eq rfl h0.symm rfl rfl rfl rfl rfl (acc_zero (X m c) (Y m c) (t.val / 7) hn)))

/-- At a later point of a row block one more tile is added to what the point before left. -/
theorem acc_next (c : Dev nD) (t : Fin cfg0.N) (h0 : ¬t.val % 7 = 0) (hn : t.val / 7 < 5) (hn' : (t.val - 1) / 7 < 5)
    (ih : AccT (X m c) (Y m c) ((t.val - 1) / 7) hn' ((t.val - 1) % 7 + 1)
      (outsAt0 m c (t.val - 1) (Nat.lt_of_le_of_lt (Nat.sub_le _ _) t.isLt))) :
    AccT (X m c) (Y m c) (t.val / 7) hn (t.val % 7 + 1) (outsAt0 m c t.val t.isLt) := by
  have hp : t.val % 7 < 7 := Nat.mod_lt _ (by decide)
  have en : (t.val - 1) / 7 = t.val / 7 := by omega
  have ek : (t.val - 1) % 7 + 1 = t.val % 7 := by omega
  unfold AccT at ih
  by_cases h1 : t.val % 7 = 6
  · rw [outsAt0_C m c t h0 h1]
    unfold AccT
    dsimp only
    exact acc_of_eq rfl rfl
      ((at_point% Pieces.last_0 t) _ _ _ _ _ (fun h => h0 ((hcond0_0 t).mp h)) ((hcond0_1 t).mpr h1))
      ((at_point% Pieces.last_1 t) _ _ _ _ _ (fun h => h0 ((hcond0_0 t).mp h)) ((hcond0_1 t).mpr h1))
      ((at_point% Pieces.last_2 t) _ _ _ _ _ (fun h => h0 ((hcond0_0 t).mp h)) ((hcond0_1 t).mpr h1))
      ((at_point% Pieces.last_3 t) _ _ _ _ _ (fun h => h0 ((hcond0_0 t).mp h)) ((hcond0_1 t).mpr h1))
      ((at_point% Pieces.last_4 t) _ _ _ _ _ (fun h => h0 ((hcond0_0 t).mp h)) ((hcond0_1 t).mpr h1))
      (acc_step (X m c) (Y m c) (t.val / 7) (t.val % 7) hn hp (iblk m c 0 t) (iblk m c 1 t) (tile_x m c t hn hp) (tile_y m c t hp)
        _ _ _ _ _ (acc_of_eq en ek rfl rfl rfl rfl rfl ih))
  · rw [outsAt0_B m c t h0 h1]
    unfold AccT
    dsimp only
    exact acc_of_eq rfl rfl
      ((at_point% Pieces.middle_0 t) _ _ _ _ _ (fun h => h0 ((hcond0_0 t).mp h)) (fun h => h1 ((hcond0_1 t).mp h)))
      ((at_point% Pieces.middle_1 t) _ _ _ _ _ (fun h => h0 ((hcond0_0 t).mp h)) (fun h => h1 ((hcond0_1 t).mp h)))
      ((at_point% Pieces.middle_2 t) _ _ _ _ _ (fun h => h0 ((hcond0_0 t).mp h)) (fun h => h1 ((hcond0_1 t).mp h)))
      ((at_point% Pieces.middle_3 t) _ _ _ _ _ (fun h => h0 ((hcond0_0 t).mp h)) (fun h => h1 ((hcond0_1 t).mp h)))
      ((at_point% Pieces.middle_4 t) _ _ _ _ _ (fun h => h0 ((hcond0_0 t).mp h)) (fun h => h1 ((hcond0_1 t).mp h)))
      (acc_step (X m c) (Y m c) (t.val / 7) (t.val % 7) hn hp (iblk m c 0 t) (iblk m c 1 t) (tile_x m c t hn hp) (tile_y m c t hp)
        _ _ _ _ _ (acc_of_eq en ek rfl rfl rfl rfl rfl ih))

/-- After point `n`: the sums over the first `n % 7 + 1` tiles, for row block `n / 7` — by induction on the point. -/
theorem acc_at (c : Dev nD) : ∀ (n : ℕ) (h : n < cfg0.N) (hn : n / 7 < 5),
    AccT (X m c) (Y m c) (n / 7) hn (n % 7 + 1) (outsAt0 m c n h)
  | 0, h, hn => acc_first m c ⟨0, h⟩ (Nat.zero_mod 7) hn
  | n + 1, h, hn => by
    by_cases h0 : (n + 1) % 7 = 0
    · exact acc_first m c ⟨n + 1, h⟩ h0 hn
    · have hN : cfg0.N = 35 := N_0
      exact acc_next m c ⟨n + 1, h⟩ h0 hn (by show (n + 1 - 1) / 7 < 5; omega)
        (acc_at c n (Nat.lt_of_succ_lt h) (by omega))

/-! ## The output block, and the output array -/

/-- What a row block's last point stores into the output block: the point cost of its 80 rows against the 80
    targets (the accumulators then hold the sums over all seven tiles). -/
theorem out_last (c : Dev nD) (t : Fin cfg0.N) (h6 : t.val % 7 = 6) (hn : t.val / 7 < 5) (r j : Fin 80) :
    (outsAt0 m c t.val t.isLt).1 (ix2 r j) = pointCost (X m c) (Y m c) (row (t.val / 7) hn r) j := by
  have h0 : ¬t.val % 7 = 0 := by omega
  have hacc := acc_at m c t.val t.isLt hn
  unfold AccT at hacc
  rw [outsAt0_C m c t h0 h6] at hacc ⊢
  dsimp only at hacc ⊢
  refine (congrFun ((at_point% Pieces.last_out t) _ _ _ _ _ (fun h => h0 ((hcond0_0 t).mp h)) ((hcond0_1 t).mpr h6)) (ix2 r j)).trans ?_
  exact acc_final (X m c) (Y m c) (t.val / 7) hn _ _ _ _ _
    (acc_of_eq rfl (by omega : t.val % 7 + 1 = 7)
      ((at_point% Pieces.last_0 t) _ _ _ _ _ (fun h => h0 ((hcond0_0 t).mp h)) ((hcond0_1 t).mpr h6)).symm
      ((at_point% Pieces.last_1 t) _ _ _ _ _ (fun h => h0 ((hcond0_0 t).mp h)) ((hcond0_1 t).mpr h6)).symm
      ((at_point% Pieces.last_2 t) _ _ _ _ _ (fun h => h0 ((hcond0_0 t).mp h)) ((hcond0_1 t).mpr h6)).symm
      ((at_point% Pieces.last_3 t) _ _ _ _ _ (fun h => h0 ((hcond0_0 t).mp h)) ((hcond0_1 t).mpr h6)).symm
      ((at_point% Pieces.last_4 t) _ _ _ _ _ (fun h => h0 ((hcond0_0 t).mp h)) ((hcond0_1 t).mpr h6)).symm
      hacc) r j

/-- The point cost as an array over prediction row × target row. -/
def G (c : Dev nD) : SC.Idx → EReal :=
  fun i => pointCost (X m c) (Y m c) ⟨(i 0).val, (i 0).isLt⟩ ⟨(i 1).val, (i 1).isLt⟩

/-- What a write-back writes: the output block is written back only at a row block's last point, and there it is
    rows `80 · (t / 7) …` of the point cost. -/
theorem flushed_eq (c : Dev nD) (t : Fin cfg0.N) (hf : (cfg0.win 2).flush t = true) :
    (dats m 0 c).flushed 2 t = ((cfg0.win 2).blk t).view.read (Elt Ideal) (G m c) := by
  have hN : cfg0.N = 35 := N_0
  have h6 : t.val % 7 = 6 := (flush0_2 t).mp hf
  have hn : t.val / 7 < 5 := by have := t.isLt; omega
  show (cfg0.win 2).cut (grid0.coords t) ((dats m 0 c).after 2 t) = _
  rw [after0_2]
  funext y
  obtain ⟨r, j, rfl⟩ : ∃ (r : Fin 80) (j : Fin 80), y = ix2 r j := ⟨y 0, y 1, eq_ix2 y⟩
  show (outsAt0 m c t.val t.isLt).1 (ix2 r j) = G m c (((cfg0.win 2).blk t).view.emb (ix2 r j))
  rw [out_last m c t h6 hn r j]
  unfold G
  refine congrArg₂ (pointCost (X m c) (Y m c)) (Fin.ext ?_) (Fin.ext ?_)
  · show 80 * (t.val / 7) + r.val = win0_2.index t (0 : Fin 2) * 80 + 1 * r.val
    rw [(idx_o t).1]; omega
  · show j.val = win0_2.index t (1 : Fin 2) * 80 + 1 * j.val
    rw [(idx_o t).2]; omega

/-- An index of the output array is in point `t`'s block iff each coordinate is in the block's range. -/
theorem mem_blk (t : Fin cfg0.N) (i : S400x80.Idx) :
    i ∈ ((cfg0.win 2).blk t).view.set ↔ ∀ a : Fin 2, win0_2.index t a * S80x80.size a ≤ (i a).val ∧ (i a).val < win0_2.index t a * S80x80.size a + S80x80.size a := by
  show i ∈ ((View.whole main_v37).slice (win0_2.rect t)).set ↔ _
  rw [View.set_slice_whole, Rect.mem_set_unit]
  exact Iff.rfl

/-- The output array after the run is the point cost: row `i` lies in row block `i / 80`, written back at that
    block's last point `7 · (i / 80) + 6`. -/
theorem final_out (c : Dev nD) : (dats m 0 c).arrAt 2 cfg0.N = G m c :=
  (dats m 0 c).arrAt_eq_of_cover 2 (G m c) (flushed_eq m c) fun i => by
    have hN : cfg0.N = 35 := N_0
    have hi0 : (i 0).val < 400 := (i 0).isLt
    have hi1 : (i 1).val < 80 := (i 1).isLt
    have ht : 7 * ((i 0).val / 80) + 6 < cfg0.N := by omega
    have e0 : win0_2.index ⟨7 * ((i 0).val / 80) + 6, ht⟩ (0 : Fin 2) = (7 * ((i 0).val / 80) + 6) / 7 := (idx_o ⟨_, ht⟩).1
    have e1 : win0_2.index ⟨7 * ((i 0).val / 80) + 6, ht⟩ (1 : Fin 2) = 0 := (idx_o ⟨_, ht⟩).2
    refine ⟨⟨7 * ((i 0).val / 80) + 6, ht⟩, (flush0_2 _).mpr (by show (7 * ((i 0).val / 80) + 6) % 7 = 6; omega), ?_⟩
    rw [mem_blk]
    intro a
    match a with
    | ⟨0, _⟩ =>
      show win0_2.index ⟨7 * ((i 0).val / 80) + 6, ht⟩ (0 : Fin 2) * 80 ≤ (i 0).val ∧ (i 0).val < win0_2.index ⟨7 * ((i 0).val / 80) + 6, ht⟩ (0 : Fin 2) * 80 + 80
      rw [e0]; omega
    | ⟨1, _⟩ =>
      show win0_2.index ⟨7 * ((i 0).val / 80) + 6, ht⟩ (1 : Fin 2) * 80 ≤ (i 1).val ∧ (i 1).val < win0_2.index ⟨7 * ((i 0).val / 80) + 6, ht⟩ (1 : Fin 2) * 80 + 80
      rw [e1]; omega

end Cert.KernelValue

end
-- ==== Proof.RefCost.lean ====
/-
  The reference's cost, read at a pair of rows, is the cost function of the specification applied to the
  three gathered arrays: the sampled mask logits, the sampled target masks and the class cost.

  Entrywise stages first (softplus and the logistic of a logit), then the five sums over the 12544 sample
  points, then the mask cost and the dice cost at a pair (i, j), then the weighted total; the reference adds
  (2·class + 5·mask) + 5·dice where the specification adds 2·class + (5·mask + 5·dice).
-/
import proofs.«113204_j56581899157958_1_alg».proof.Proof.Gen.ReferenceIdeal.Read
import proofs.«113204_j56581899157958_1_alg».proof.Proof.CostSpec
import Idealize.ShloMosaic.Lib.IdealHost

noncomputable section

namespace Cert.RefCost

open Cert.ReferenceIdeal Idealize.ShloMosaic Idealize.ShloMosaic.ValueIdx Cert.CostSpec

/-! ## Three words and one comparison -/

/-- The word 0x46440000 is the real 12544. -/
theorem ofBits_12544 : Ideal.ofBits .f32 0x46440000#32 = ((12544 : ℝ) : EReal) := by
  simp [Ideal.ofBits, Ideal.ieee, -EReal.coe_mul]; norm_num

/-- Division by the word 12544 is the product with the reciprocal of the number of sample points. -/
theorem div_12544 (x : EReal) : Ideal.div x (Ideal.ofBits .f32 0x46440000#32) = x * invN := by
  rw [ofBits_12544, Ideal.div_coe (by norm_num)]; rfl

/-- On the extended reals nothing differs from itself. -/
theorem cmp_une_self (d : EReal) : Ideal.cmp .une d d = 0#1 := by
  simp [Ideal.cmp]

variable (x0 : (⟨S4x100x134, .f32⟩ : BufTy).Contents (Elt Ideal))
  (x1 : (⟨S4x100x256x256, .f32⟩ : BufTy).Contents (Elt Ideal))
  (x2 : (⟨S80, .i32⟩ : BufTy).Contents (Elt Ideal))
  (x3 : (⟨S80x256x256, .f32⟩ : BufTy).Contents (Elt Ideal))
  (x4 : (⟨S12544, .i32⟩ : BufTy).Contents (Elt Ideal))

/-! ## The two entrywise stages -/

/-- The softplus stage, entrywise: the guard of the select compares a number with itself, so the
    select takes max(x,0) + log(1 + e^(−|x|)). -/
theorem v37_at (p : S400x12544.Idx) :
    Read.val_main_v37 (F := Ideal) x1 x4 p = softplus (Read.val_main_v28 (F := Ideal) x1 x4 p) := by
  unfold softplus
  generalize hX : Read.val_main_v28 (F := Ideal) x1 x4 = X
  simp only [Read.val_main_v37_apply, Read.val_main_call1_v4_apply, Read.val_main_call1_v3_apply,
    Read.val_main_call1_v2_apply, Read.val_main_call1_cst_apply, Read.val_main_call1_v6_apply,
    Read.val_main_call1_v5_apply, Read.val_main_call1_v11_apply, Read.val_main_call1_v1_apply,
    Read.val_main_call1_v0_apply, Read.val_main_call1_v10_apply, Read.val_main_call1_v9_apply,
    Read.val_main_call1_v8_apply, Read.val_main_call1_v7_apply, hX,
    Ideal.ofBits_def, Ideal.subf_def, Ideal.addf_def, Ideal.maximumf_def, Ideal.hostUnary_exp_def,
    Ideal.hostUnary_log1p_def, Ideal.hostNegf_def, Ideal.hostAbsf_def, Ideal.negf_def, Ideal.absf_def,
    Ideal.cmpf_def, Ideal.ofBits_zero_f32, sub_zero, cmp_une_self, select_zero]

/-- The logistic stage, entrywise: 1 / (1 + e^(−x)). -/
theorem v52_at (p : S400x12544.Idx) :
    Read.val_main_v52 (F := Ideal) x1 x4 p = Ideal.logistic (Read.val_main_v28 (F := Ideal) x1 x4 p) := by
  generalize hX : Read.val_main_v28 (F := Ideal) x1 x4 = X
  simp only [Read.val_main_v52_apply, Read.val_main_v51_apply, Read.val_main_cst_13_apply,
    Read.val_main_v50_apply, Read.val_main_v49_apply, Read.val_main_cst_12_apply,
    Read.val_main_v48_apply, Read.val_main_v47_apply, hX,
    Ideal.ofBits_def, Ideal.addf_def, Ideal.hostDivf_def, Ideal.hostUnary_exp_def, Ideal.hostNegf_def,
    Ideal.negf_def, Ideal.ofBits_one_f32]
  rfl

/-! ## The five sums over the sample points -/

/-- The mean of softplus along a row: the sum times 1/12544. -/
theorem v40_at (r : S400.Idx) :
    Read.val_main_v40 (F := Ideal) x1 x4 r
      = (∑ q : Fin 12544, softplus (Read.val_main_v28 (F := Ideal) x1 x4 (ix2 (r 0) q))) * invN := by
  rw [Read.val_main_v40_apply, Read.val_main_v39_apply, Read.val_main_cst_10_apply, Read.val_main_v38_apply,
    Read.val_main_cst_9_apply]
  simp only [Ideal.hostDivf_def, Ideal.ofBits_def, Ideal.ofBits_zero_f32, zero_add, div_12544, v37_at]
  refine congrArg (· * invN) (Finset.sum_congr rfl fun k _ => ?_)
  exact congrArg (fun t => softplus (Read.val_main_v28 (F := Ideal) x1 x4 t))
    (funext fun a => by match a with | ⟨0, _⟩ => rfl | ⟨1, _⟩ => rfl)

/-- The row sum of the logistic. -/
theorem v56_at (r : S400.Idx) :
    Read.val_main_v56 (F := Ideal) x1 x4 r
      = ∑ q : Fin 12544, Ideal.logistic (Read.val_main_v28 (F := Ideal) x1 x4 (ix2 (r 0) q)) := by
  rw [Read.val_main_v56_apply, Read.val_main_cst_15_apply]
  simp only [Ideal.ofBits_def, Ideal.ofBits_zero_f32, zero_add, v52_at]
  refine Finset.sum_congr rfl fun k _ => ?_
  exact congrArg (fun t => Ideal.logistic (Read.val_main_v28 (F := Ideal) x1 x4 t))
    (funext fun a => by match a with | ⟨0, _⟩ => rfl | ⟨1, _⟩ => rfl)

/-- The row sum of the target masks. -/
theorem v58_at (c : S80.Idx) :
    Read.val_main_v58 (F := Ideal) x3 x4 c
      = ∑ q : Fin 12544, Read.val_main_v36 (F := Ideal) x3 x4 (ix2 (c 0) q) := by
  rw [Read.val_main_v58_apply, Read.val_main_cst_16_apply]
  simp only [Ideal.ofBits_def, Ideal.ofBits_zero_f32, zero_add]
  refine Finset.sum_congr rfl fun k _ => ?_
  exact congrArg (Read.val_main_v36 (F := Ideal) x3 x4)
    (funext fun a => by match a with | ⟨0, _⟩ => rfl | ⟨1, _⟩ => rfl)

/-- The product of the logits with the target masks, contracted over the sample points. -/
theorem v41_at (p : S400x80.Idx) :
    Read.val_main_v41 (F := Ideal) x1 x3 x4 p
      = ∑ q : Fin 12544, Read.val_main_v28 (F := Ideal) x1 x4 (ix2 (p 0) q) * Read.val_main_v36 (F := Ideal) x3 x4 (ix2 (p 1) q) := by
  rw [Read.val_main_v41_apply]
  refine Finset.sum_congr rfl fun k _ => ?_
  have el : Read.lidx_main_v41 p k = ix2 (p 0) k := funext fun a => by match a with | ⟨0, _⟩ => rfl | ⟨1, _⟩ => rfl
  have er : Read.ridx_main_v41 p k = ix2 (p 1) k := funext fun a => by match a with | ⟨0, _⟩ => rfl | ⟨1, _⟩ => rfl
  rw [el, er]
  rfl

/-- The product of the logistic with the target masks, contracted over the sample points. -/
theorem v53_at (p : S400x80.Idx) :
    Read.val_main_v53 (F := Ideal) x1 x3 x4 p
      = ∑ q : Fin 12544, Ideal.logistic (Read.val_main_v28 (F := Ideal) x1 x4 (ix2 (p 0) q)) * Read.val_main_v36 (F := Ideal) x3 x4 (ix2 (p 1) q) := by
  rw [Read.val_main_v53_apply]
  refine Finset.sum_congr rfl fun k _ => ?_
  have el : Read.lidx_main_v53 p k = ix2 (p 0) k := funext fun a => by match a with | ⟨0, _⟩ => rfl | ⟨1, _⟩ => rfl
  have er : Read.ridx_main_v53 p k = ix2 (p 1) k := funext fun a => by match a with | ⟨0, _⟩ => rfl | ⟨1, _⟩ => rfl
  rw [v52_at, el, er]
  rfl

/-! ## The two costs at a pair of rows -/

/-- The mask cost: mean softplus minus the mean product. -/
theorem v46_ij (i : Fin 400) (j : Fin 80) :
    Read.val_main_v46 (F := Ideal) x1 x3 x4 (ix2 i j)
      = (∑ q, spTerm (Read.val_main_v28 (F := Ideal) x1 x4) i q) * invN
        - (∑ q, xyTerm (Read.val_main_v28 (F := Ideal) x1 x4) (Read.val_main_v36 (F := Ideal) x3 x4) i j q) * invN := by
  rw [Read.val_main_v46_apply, Read.val_main_v45_apply, Read.val_main_v42_apply, v40_at, Read.val_main_v44_apply,
    Read.val_main_v43_apply, Read.val_main_cst_11_apply, v41_at]
  simp only [Ideal.subf_def, Ideal.hostDivf_def, Ideal.ofBits_def, div_12544]
  rfl

/-- The dice cost: 1 − (2·Σσy + 1) / ((Σσ + Σy) + 1). -/
theorem v69_ij (i : Fin 400) (j : Fin 80) :
    Read.val_main_v69 (F := Ideal) x1 x3 x4 (ix2 i j)
      = one - Ideal.div (two * (∑ q, syTerm (Read.val_main_v28 (F := Ideal) x1 x4) (Read.val_main_v36 (F := Ideal) x3 x4) i j q) + one)
          (((∑ q, sgTerm (Read.val_main_v28 (F := Ideal) x1 x4) i q) + (∑ q, yTerm (Read.val_main_v36 (F := Ideal) x3 x4) j q)) + one) := by
  rw [Read.val_main_v69_apply, Read.val_main_v68_apply, Read.val_main_cst_19_apply, Read.val_main_v67_apply,
    Read.val_main_v64_apply, Read.val_main_v55_apply, Read.val_main_v54_apply, Read.val_main_cst_14_apply, v53_at,
    Read.val_main_v63_apply, Read.val_main_cst_17_apply, Read.val_main_v66_apply, Read.val_main_v62_apply,
    Read.val_main_v60_apply, Read.val_main_v57_apply, v56_at, Read.val_main_v61_apply, Read.val_main_v59_apply, v58_at,
    Read.val_main_v65_apply, Read.val_main_cst_18_apply]
  simp only [Ideal.subf_def, Ideal.addf_def, Ideal.mulf_def, Ideal.hostDivf_def, Ideal.ofBits_def]
  rfl

/-! ## The whole cost -/

/-- The reference's cost at prediction row i and target row j is the cost of the three gathered arrays. -/
theorem ref_cost (i : Fin 400) (j : Fin 80) :
    Read.val_main_v77 (F := Ideal) x0 x1 x2 x3 x4 (ix2 i j)
      = cost (Read.val_main_v28 (F := Ideal) x1 x4) (Read.val_main_v36 (F := Ideal) x3 x4)
          (Read.val_main_v20 (F := Ideal) x0 x2) i j := by
  rw [Read.val_main_v77_apply, Read.val_main_v74_apply, Read.val_main_v71_apply, Read.val_main_v70_apply,
    Read.val_main_cst_20_apply, Read.val_main_v73_apply, Read.val_main_v72_apply, Read.val_main_cst_21_apply, v46_ij,
    Read.val_main_v76_apply, Read.val_main_v75_apply, Read.val_main_cst_22_apply, v69_ij]
  simp only [Ideal.addf_def, Ideal.mulf_def, Ideal.ofBits_def]
  exact add_assoc _ _ _

end Cert.RefCost

end
-- ==== Proof.HostPrefix.lean ====
/-
  The host operations before the kernel's region are the reference's first operations: the three arrays
  the region reads (the sampled mask logits, the sampled target masks, the class cost) are, on entry to
  the region, the reference's three gathers of the same arguments.
-/
import proofs.«113204_j56581899157958_1_alg».proof.Proof.Gen.KernelIdeal.Frame
import proofs.«113204_j56581899157958_1_alg».proof.Proof.Gen.ReferenceIdeal.Read
import Idealize.ShloMosaic.Lib.StableHlo.Run

noncomputable section

namespace Cert.HostPrefix

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The sampled mask logits on entry to the region: the gather of the flattened predicted masks at the sample points. -/
theorem v28_eq :
    (V m c main_v28 : S400x12544.Idx → EReal)
      = Cert.ReferenceIdeal.Read.val_main_v28 (F := Ideal) (m ((c : Thread nD τ).loc main_arg1)) (m ((c : Thread nD τ).loc main_arg4)) := by
  dsimp only [V, V0]
  simp only [hostOps0, hostOps0_1, hostOps0_2, List.flatten_cons, List.flatten_nil, List.append_nil, List.cons_append,
    List.nil_append]
  after_results_simp
  rfl

/-- The sampled target masks on entry to the region: the gather of the flattened target masks at the sample points. -/
theorem v36_eq :
    (V m c main_v36 : S80x12544.Idx → EReal)
      = Cert.ReferenceIdeal.Read.val_main_v36 (F := Ideal) (m ((c : Thread nD τ).loc main_arg3)) (m ((c : Thread nD τ).loc main_arg4)) := by
  dsimp only [V, V0]
  simp only [hostOps0, hostOps0_1, hostOps0_2, List.flatten_cons, List.flatten_nil, List.append_nil, List.cons_append,
    List.nil_append]
  after_results_simp
  rfl

/-- The class cost on entry to the region: minus the softmax of the class logits, gathered at the clipped target labels. -/
theorem v20_eq :
    (V m c main_v20 : S400x80.Idx → EReal)
      = Cert.ReferenceIdeal.Read.val_main_v20 (F := Ideal) (m ((c : Thread nD τ).loc main_arg0)) (m ((c : Thread nD τ).loc main_arg2)) := by
  dsimp only [V, V0]
  simp only [hostOps0, hostOps0_1, hostOps0_2, List.flatten_cons, List.flatten_nil, List.append_nil, List.cons_append,
    List.nil_append]
  after_results_simp
  rfl

end Cert.HostPrefix

end
-- ==== Proof.HostTail.lean ====
/-
  The lines after the region. Once the region has written the point cost of every prediction row against every target
  row, five host operations finish the result: the constant 2, its broadcast over `[400, 80]`, its product with the
  class cost (as the region found it), the sum of that product and the point cost, and the view of the `[400, 80]` sum
  as `[4, 100, 80]`. Here the result after those lines is that expression of the class cost and of the point-cost
  array after the run, and the sum before the last view is read entry by entry.
-/
import proofs.«113204_j56581899157958_1_alg».proof.Proof.Gen.KernelIdeal.Frame
import Idealize.ShloMosaic.Lib.StableHlo.Run
import Idealize.ShloMosaic.Lib.Pipeline.Value
import Idealize.ShloMosaic.Lib.ValueIdx

noncomputable section

namespace Cert.HostTail

open Cert.KernelIdeal Cert.KernelIdeal.Gen Idealize.ShloMosaic Idealize.ShloMosaic.StableHlo

variable (m : (ℓ : Loc nD τ sig) → Buf (Elt Ideal) ℓ) (c : Dev nD)

/-- What the five lines after the region leave in the result: twice the class cost (as the region found it) plus the
    point cost the region wrote, viewed as `[4, 100, 80]`. -/
theorem tail_v41 : Pipeline.afterTail₀ cfgs (dats m) 0 (V0 m) [hostOps1] c main_v41
      = shapeCast S4x100x80 (addf (mulf (broadcastInDim S400x80 ![] bcast_S_S400x80 (constant (F := Ideal) S_ .f32 0x40000000#32)) (V m c main_v20)) ((dats m 0 c).arrAt 2 cfg0.N)) shapeCasts_S400x80_S4x100x80 := by
  unfold Pipeline.afterTail₀
  show StableHlo.after hostOps1 _ (Proc.devRef .tc main_v41) = _
  after_results
  have e37 : Pipeline.withArrays (cfgs 0).spec c (V0 m c) (fun w => (dats m 0 c).arrAt w (cfgs 0).N) (Proc.devRef .tc main_v37)
      = (dats m 0 c).arrAt 2 cfg0.N :=
    Pipeline.withArrays_arr spec0 launch0.win.arr_inj c _ _ 2
  have e20 : Pipeline.withArrays (cfgs 0).spec c (V0 m c) (fun w => (dats m 0 c).arrAt w (cfgs 0).N) (Proc.devRef .tc main_v20)
      = V m c main_v20 :=
    Pipeline.withArrays_of_ne _ c (V0 m c) _ main_v20 (by decide)
  rw [e37, e20]
  rfl

/-- The sum before the last view, entry by entry. -/
theorem tail_v40_apply (i : Fin 400) (j : Fin 80) :
    (addf (mulf (broadcastInDim S400x80 ![] bcast_S_S400x80 (constant (F := Ideal) S_ .f32 0x40000000#32)) (V m c main_v20)) ((dats m 0 c).arrAt 2 cfg0.N)) (ValueIdx.ix2 i j)
      = Ideal.ofBits .f32 0x40000000#32 * (V m c main_v20) (ValueIdx.ix2 i j) + ((dats m 0 c).arrAt 2 cfg0.N) (ValueIdx.ix2 i j) := rfl

end Cert.HostTail

end
-- ==== Proof.Bridge.lean ====
/-
  The two programs end with one result.

  The kernel program multiplies the class cost by 2 and adds the kernel's output array, the point cost
  `5 · mask cost + 5 · dice cost`; the reference adds `2 · class cost + 5 · mask cost` first and `5 · dice cost`
  last. Entry by entry both are the specification's `cost` of the same three arrays — the class cost and the
  two sampled arrays, which the two programs compute by the same host operations from the same arguments — and
  the final reshape to 4 × 100 × 80 is the same on both sides. The common result is stated as the reference's
  last stage applied to the kernel program's arguments.
-/
import proofs.«113204_j56581899157958_1_alg».proof.Proof.Gen.KernelIdeal.Frame
import proofs.«113204_j56581899157958_1_alg».proof.Proof.Gen.ReferenceIdeal.Read
import proofs.«113204_j56581899157958_1_alg».proof.Proof.KernelValue
import proofs.«113204_j56581899157958_1_alg».proof.Proof.RefCost
import proofs.«113204_j56581899157958_1_alg».proof.Proof.HostPrefix
import proofs.«113204_j56581899157958_1_alg».proof.Proof.HostTail

noncomputable section

namespace Cert.Bridge

open Idealize.ShloMosaic Idealize.ShloMosaic.TcCoe Idealize.SL.Sem Idealize.ShloMosaic.ValueIdx
open Cert.KernelIdeal Cert.KernelIdeal.Gen Cert.CostSpec

variable (m : (ℓ : Loc nD τ sig) → Buf (Elt Ideal) ℓ) (ρ : Dev nD → PrngReg)

/-- The common result: the reference's last stage, of the kernel program's five arguments. -/
def result (c : Dev nD) : Buf (Elt Ideal) ((c.tc : Thread nD τ).loc main_v41) :=
  Cert.ReferenceIdeal.Read.val_main_v78 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- Before the reshape: `2 · class cost + point cost` is, entry by entry, the reference's `(2 · class cost + 5 · mask
    cost) + 5 · dice cost` — both are the specification's cost of the same three arrays. -/
theorem sum_eq (c : Dev nD) :
    addf (mulf (broadcastInDim S400x80 ![] bcast_S_S400x80 (constant (F := Ideal) S_ .f32 0x40000000#32)) (V m c main_v20)) ((dats m 0 c).arrAt 2 cfg0.N)
      = Cert.ReferenceIdeal.Read.val_main_v77 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  obtain ⟨a, b, rfl⟩ : ∃ (a : Fin 400) (b : Fin 80), i = ix2 a b := ⟨i 0, i 1, eq_ix2 i⟩
  rw [Cert.HostTail.tail_v40_apply m c a b, Cert.KernelValue.final_out m c, Cert.RefCost.ref_cost, Cert.HostPrefix.v20_eq m c]
  unfold cost Cert.KernelValue.G Cert.KernelValue.X Cert.KernelValue.Y
  rw [Cert.HostPrefix.v28_eq m c, Cert.HostPrefix.v36_eq m c]
  rfl

/-- What the host operations after the region leave in the result buffer is the common result. -/
theorem tail_eq_result (c : Dev nD) :
    Pipeline.afterTail₀ cfgs (dats m) 0 (V0 m) [hostOps1] c main_v41 = result m c := by
  rw [Cert.HostTail.tail_v41 m c, sum_eq m c]
  rfl

/-- The kernel program's run, read: the result buffer at the common result, the arguments unchanged. -/
theorem run : θ_run defs (onTc (τ := τ) (main (F := Ideal))) ⟨m, fun _ => 0, ρ⟩ fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v41 (Pipeline.mem_restRefs_of main_v41 (by decide) (by decide))).trans (tail_eq_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Bridge

end
-- ==== Proof.lean ====
/-
  The matching cost of 400 mask predictions against 80 targets: a kernel that accumulates, tile by tile over the
  12544 sampled points, the sums that the mask cost and the dice cost need, against the plain array program.

  On the extended reals the two programs compute one function. The kernel's seven partial sums per row add up to
  the reference's whole sums (a sum over the points is the sum of its tiles' sums); the kernel multiplies by the
  reciprocal 1/12544 where the reference divides by 12544; its logistic function is the reference's
  1 / (1 + e^(−x)); and the last three terms are added in another grouping. None of this needs the inputs finite:
  only associativity and commutativity of addition are used.

  Proof/CostSpec.lean states the function; Proof/Payloads.lean and Proof/Accum.lean read the kernel body's
  arithmetic; Proof/Pieces.lean and Proof/KernelValue.lean read what the body leaves point by point and the output
  array; Proof/RefCost.lean reads the reference; Proof/HostPrefix.lean and Proof/HostTail.lean the host operations
  around the kernel; Proof/Bridge.lean joins the two sides. Here: the five claims.
-/
import proofs.«113204_j56581899157958_1_alg».proof.Defs
import proofs.«113204_j56581899157958_1_alg».proof.Proof.Gen.Kernel
import proofs.«113204_j56581899157958_1_alg».proof.Proof.Gen.Kernel.Skeleton
import proofs.«113204_j56581899157958_1_alg».proof.Proof.Gen.Kernel.Launch
import proofs.«113204_j56581899157958_1_alg».proof.Proof.Gen.Kernel.Points
import proofs.«113204_j56581899157958_1_alg».proof.Proof.Gen.Kernel.Frame
import proofs.«113204_j56581899157958_1_alg».proof.Proof.Gen.KernelIdeal
import proofs.«113204_j56581899157958_1_alg».proof.Proof.Gen.KernelIdeal.Skeleton
import proofs.«113204_j56581899157958_1_alg».proof.Proof.Gen.KernelIdeal.Launch
import proofs.«113204_j56581899157958_1_alg».proof.Proof.Gen.KernelIdeal.Points
import proofs.«113204_j56581899157958_1_alg».proof.Proof.Gen.KernelIdeal.Frame
import proofs.«113204_j56581899157958_1_alg».proof.Proof.Gen.ReferenceIdeal
import proofs.«113204_j56581899157958_1_alg».proof.Proof.Gen.ReferenceIdeal.Run
import proofs.«113204_j56581899157958_1_alg».proof.Proof.Gen.ReferenceIdeal.Read
import proofs.«113204_j56581899157958_1_alg».proof.Proof.Gen.Pre_finite_inputs
import proofs.«113204_j56581899157958_1_alg».proof.Proof.Bridge
import Idealize.ShloMosaic.Adequacy
import Idealize.ShloMosaic.Init

noncomputable section

namespace Cert.Proof

open Idealize.ShloMosaic Idealize.SL.Sem Cert.Kernel

/-- The word-level kernel program runs and leaves its arguments unchanged: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization named one constant, at two sites: the reciprocal of the number of sample points, 1/12544. -/
theorem preserves : Cert.preserves_Kernel_KernelIdeal :=
  ⟨IdealRules.named_const.statement Cert.KernelIdeal.κ "inv_12544" .f32 0x38A72F05#32 ((1 / 12544 : ℝ) : EReal) rfl,
    IdealRules.named_const.statement Cert.KernelIdeal.κ "inv_12544" .f32 0x38A72F05#32 ((1 / 12544 : ℝ) : EReal) rfl⟩

/-- From arguments that agree both programs end at the common result: the kernel program by its run read through
    the frame, the reference by its generated run, whose last stage of agreeing arguments is that result. -/
theorem algebraic : Cert.algebraic_KernelIdeal_ReferenceIdeal := by
  intro m ρ m' ρ' _ hagree
  refine ⟨fun c => Cert.Bridge.result m c, Cert.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq m' c, (hagree c).1, (hagree c).2.1, (hagree c).2.2.1, (hagree c).2.2.2.1,
    (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
